-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  main_v3
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1024x768 : Shape := ⟨2, ![1024, 768]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x768, .f32⟩
  | .hbm, ⟨10, _⟩ => ⟨S8192x768, .f32⟩
  | .hbm, ⟨11, _⟩ => ⟨S8192x768, .bf16⟩
  | .hbm, ⟨12, _⟩ => ⟨S8192x1, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v5) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S768x8192 : Shape := ⟨2, ![768, 8192]⟩
abbrev S8192x8192 : Shape := ⟨2, ![8192, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x768, .f32⟩
  | .hbm, ⟨10, _⟩ => ⟨S8192x768, .f32⟩
  | .hbm, ⟨11, _⟩ => ⟨S768x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  transposes_S8192x768_S768x8192_1_0 : S8192x768.Transposes [1, 0] S768x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x768_S768x8192_S8192x8192_1_0_0_1_n_n_wf : DotDims.WF S8192x768 S768x8192 S8192x8192 [1] [0] [0] [1] [] []

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.FrIShared.lean ====
/-
  What the three runs of the kernel body share.

  The grid is 8 × 8: point t = 8·I + j handles row tile I (1024 rows) against column tile j (1024 rows of the same
  array).  The body resets its accumulator when j = 0 (t ≡ 0 mod 8), adds the tile's contribution at every point, and
  copies the accumulator to the output block when j = 7 (t ≡ 7 mod 8).  So there are three control cases: first
  (reset, add), middle (add), last (add, copy out); the output window is idle, and not written back, except at the
  last column tile.
-/
import proofs.«124586_j48335561949712_1_alg».proof.Proof.Gen.KernelIdeal.Launch
import proofs.«124586_j48335561949712_1_alg».proof.Proof.Gen.KernelIdeal.Skeleton
import proofs.«124586_j48335561949712_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The reset condition: the column tile is the first. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The copy-out condition: the column tile is the last. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem idle2_first : ∀ t : Fin cfg0.N, condFirst (grid0.coords t) → ¬condLast (grid0.coords t) → cfg0.idle 2 (grid0.coords t) = true := by decide +kernel
theorem noFlush2_first : ∀ t : Fin cfg0.N, condFirst (grid0.coords t) → ¬condLast (grid0.coords t) → (cfg0.win 2).flush t = false := by decide +kernel
theorem idle2_mid : ∀ t : Fin cfg0.N, ¬condFirst (grid0.coords t) → ¬condLast (grid0.coords t) → cfg0.idle 2 (grid0.coords t) = true := by decide +kernel
theorem noFlush2_mid : ∀ t : Fin cfg0.N, ¬condFirst (grid0.coords t) → ¬condLast (grid0.coords t) → (cfg0.win 2).flush t = false := by decide +kernel
theorem live2_last : ∀ t : Fin cfg0.N, ¬condFirst (grid0.coords t) → condLast (grid0.coords t) → cfg0.idle 2 (grid0.coords t) = false := by decide +kernel

/-! ## The staging memrefs at a point, and the accumulator -/

/-- One staging buffer of the output window, through which its contents are stated. -/
abbrev VO : View sig .tc .vmem S1024x1 .f32 := (Memref.whole cc0_stg2_0 : Memref sig .tc .vmem S1024x1 .f32).view
abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev scM : Memref sig .tc .vmem S1024x1 .f32 := Memref.whole cc0_scratch0
abbrev VS : View sig .tc .vmem S1024x1 .f32 := scM.view

/-- What the region hands the body besides the windows: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.FrIRunFirst.lean ====
/-
  The body at a FIRST column tile (reset, then add): it runs, leaves both input blocks and the idle output block as it found them, and leaves the accumulator with the pieces it stored (the reset value, then the sum), whatever the accumulator held before.
-/
import proofs.«124586_j48335561949712_1_alg».proof.Proof.FrIShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a first column tile, with the body's triple: the pieces are found by running the body. -/
noncomputable def runFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i)
    (x0 x1 : Vec F S1024x768 .bf16) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kde_kernel i arg2 harg2 arg3 harg3 arg4 harg4 arg5 harg5) K } := by
  refine ⟨?_, fun xi2 E K => ?run⟩
  case run =>
    simp only [cc0__kde_kernel_eq_skeleton]; unfold cc0__kde_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.FrIRunMid.lean ====
/-
  The body at a MIDDLE column tile (add only): it runs from the accumulator at the contents the point before left, leaves both input blocks and the idle output block as it found them, and leaves the accumulator with the one piece it stored.
-/
import proofs.«124586_j48335561949712_1_alg».proof.Proof.FrIRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a middle column tile, with the body's triple. -/
noncomputable def runMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i)
    (x0 x1 : Vec F S1024x768 .bf16) (xs : Vec F S1024x1 .f32) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kde_kernel i arg2 harg2 arg3 harg3 arg4 harg4 arg5 harg5) K } := by
  refine ⟨?_, fun xi2 E K => ?run⟩
  case run =>
    simp only [cc0__kde_kernel_eq_skeleton]; unfold cc0__kde_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.FrIRunLast.lean ====
/-
  The body at a LAST column tile (add, then copy out): it runs from the accumulator at the contents the point before left and the output block at anything, leaves both input blocks as it found them, the accumulator with the piece it stored, and the output block with the copy it stored.
-/
import proofs.«124586_j48335561949712_1_alg».proof.Proof.FrIRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output block's and the accumulator's pieces after the body at a last column tile, with the body's triple. -/
noncomputable def runLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i)
    (x0 x1 : Vec F S1024x768 .bf16) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__kde_kernel i arg2 harg2 arg3 harg3 arg4 harg4 arg5 harg5) K } := by
  refine ⟨?_, ?_, fun E K => ?run⟩
  case run =>
    simp only [cc0__kde_kernel_eq_skeleton]; unfold cc0__kde_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Fr

end
-- ==== Proof.FrIData.lean ====
/-
  The proof data of the kernel region, and the body obligation at every grid point.

  Point t = 8·I + j.  After the body at t the accumulator holds: at j = 0 the tile's contribution added to the reset
  value; at j > 0 the tile's contribution added to what the point before left.  The output block is stored only at
  j = 7, with a copy of the accumulator; elsewhere it is idle and keeps what it held.  The two input windows read one
  array: window 0 its row tile I, window 1 its row tile j.
-/
import proofs.«124586_j48335561949712_1_alg».proof.Proof.FrIRunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers when the region is entered: the launch contents after the eleven host operations before it. -/
abbrev V0 (c : Dev nD) : Valuation τ sig (Elt F) := StableHlo.after hostOps0_1 (StableHlo.after hostOps0 (fun b => m (c, b)))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: the stored pieces read back -/

section Pieces
variable (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole)

theorem scoverFirst (hc0 : condFirst i) (hc1 : ¬condLast i) (x0 x1 : Vec F S1024x768 .bf16) (y : S1024x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x1.size (by sl_kernel_rfl) y
/-- The accumulator after a first column tile. -/
def soutFirst (hc0 : condFirst i) (hc1 : ¬condLast i) (x0 x1 : Vec F S1024x768 .bf16) : Vec F S1024x1 .f32 :=
  VS.read (Elt F) (VS.writes (Elt F) VS.junk (runFirst c i arg2 harg2 arg3 harg3 arg4 harg4 arg5 harg5 hc0 hc1 x0 x1).1)

theorem scoverMid (hc0 : ¬condFirst i) (hc1 : ¬condLast i) (x0 x1 : Vec F S1024x768 .bf16) (xs : Vec F S1024x1 .f32) (y : S1024x1.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x1.size (by sl_kernel_rfl) y
/-- The accumulator after a middle column tile. -/
def soutMid (hc0 : ¬condFirst i) (hc1 : ¬condLast i) (x0 x1 : Vec F S1024x768 .bf16) (xs : Vec F S1024x1 .f32) : Vec F S1024x1 .f32 :=
  VS.read (Elt F) (VS.writes (Elt F) VS.junk (runMid c i arg2 harg2 arg3 harg3 arg4 harg4 arg5 harg5 hc0 hc1 x0 x1 xs).1)

theorem coverLast (hc0 : ¬condFirst i) (hc1 : condLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x1.size (by sl_kernel_rfl) y
/-- The output block after a last column tile. -/
def outLast (hc0 : ¬condFirst i) (hc1 : condLast i) (x0 x1 : Vec F S1024x768 .bf16) (xs : Vec F S1024x1 .f32) : Vec F S1024x1 .f32 :=
  VO.read (Elt F) (VO.writes (Elt F) VO.junk (runLast c i arg2 harg2 arg3 harg3 arg4 harg4 arg5 harg5 hc0 hc1 x0 x1 xs).1)
theorem scoverLast (hc0 : ¬condFirst i) (hc1 : condLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1.size (by sl_kernel_rfl) y
/-- The accumulator after a last column tile. -/
def soutLast (hc0 : ¬condFirst i) (hc1 : condLast i) (x0 x1 : Vec F S1024x768 .bf16) (xs : Vec F S1024x1 .f32) : Vec F S1024x1 .f32 :=
  VS.read (Elt F) (VS.writes (Elt F) VS.junk (runLast c i arg2 harg2 arg3 harg3 arg4 harg4 arg5 harg5 hc0 hc1 x0 x1 xs).2.1)

end Pieces

/-- The idle output block's placeholder: nothing consults it (the block is neither written back nor read). -/
def idleOut : Vec F S1024x1 .f32 := VO.read (Elt F) VO.junk

/-! ## The accumulation, point by point -/

/-- What the output block and the accumulator hold after the body at position n (a pair). -/
def outsAt (c : Dev nD) : (n : ℕ) → n < cfg0.N → Vec F S1024x1 .f32 × Vec F S1024x1 .f32
  | 0, hn => (idleOut, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (idleOut, soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2,
         soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (idleOut, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (idleOut, soutFirst c (grid0.coords t) (ms0 t) (hs0 t) (ms1 t) (hs1 t) (ms2 t) (hs2 t) scM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (idleOut, soutMid c (grid0.coords t) (ms0 t) (hs0 t) (ms1 t) (hs1 t) (ms2 t) (hs2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2,
      soutLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the accumulator at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; each input block in place after the body, the output block at the
    accumulation's first component; the invariant above; the one shared input array held half by each input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

end Cert.KernelIdeal.Fr

end
-- ==== Proof.FrIBody.lean ====
/-
  The body obligation: at every grid point the body, called with the staging buffers of the three windows and the
  accumulator, runs and leaves what the proof data says.  Which case a point is in is decided by its position modulo 8.
-/
import proofs.«124586_j48335561949712_1_alg».proof.Proof.FrIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · have h1 : ¬t.val % 8 = 7 := by omega
    rw [Dat.leavesExact_idle (dats m 0 c) 2 t (idle2_first t ((hcondFirst t).mpr h0) (fun h => h1 ((hcondLast t).mp h))) (noFlush2_first t ((hcondFirst t).mpr h0) (fun h => h1 ((hcondLast t).mp h)))]
    rw [outsAt_first m c t h0 h1]
    unfold soutFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 2 t = owns (c : Thread nD τ) (ms2 t) fullShare ((dats m 0 c).after 2 t) from by
        unfold Dat.leavesExact; rw [live2_last t (fun h => h0 ((hcondFirst t).mp h)) ((hcondLast t).mpr h1)], after2]
      rw [outsAt_last m c t h0 h1]
      unfold outLast soutLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dats m 0 c) 2 t (idle2_mid t (fun h => h0 ((hcondFirst t).mp h)) (fun h => h1 ((hcondLast t).mp h))) (noFlush2_mid t (fun h => h0 ((hcondFirst t).mp h)) (fun h => h1 ((hcondLast t).mp h)))]
      rw [outsAt_mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _)
        iexact Hg
      isplitl [Ho]; · iexact Ho
      isplitl [H0]; · iexact H0
      isplitl [H1]; · iexact H1
      iexists _; iexact H2
/-- The body obligation, at every point. -/
theorem body_obligation (c : Dev nD) : BodyObligation (dats (F := F) m 0 c) (defs₀ (F := F)) Variants.none () Set.univ := fun t => by
  rw [bigSep_W0, bigSep_W0]
  exact sound_body m c t

/-- What the region hands the body first is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Fr

end
-- ==== Proof.FrIStates.lean ====
/-
  The buffers' contents along @main: at launch, when the region is entered (FrIData's V0), when it is left — the output
  array replaced by what the write-backs leave —, and at the end, after the ten host operations that follow the region.
-/
import proofs.«124586_j48335561949712_1_alg».proof.Proof.FrIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers when the region is left: as it found them, but for the output array. -/
def V1 (c : Dev nD) : Valuation τ sig (Elt F) :=
  Function.update (V0 m c) (Proc.devRef .tc main_v6) ((dats m 0 c).arrAt 2 cfg0.N)

/-- Core c's buffers at the end of @main. -/
def V2 (c : Dev nD) : Valuation τ sig (Elt F) := StableHlo.after hostOps1 (V1 m c)

theorem V1_out (c : Dev nD) : V1 m c (Proc.devRef .tc main_v6) = (dats m 0 c).arrAt 2 cfg0.N := by
  unfold V1; exact Function.update_self ..

theorem V1_of_ne (c : Dev nD) (b : DevRef τ sig) (hb : b ≠ Proc.devRef .tc main_v6) : V1 m c b = V0 m c b := by
  unfold V1; exact Function.update_of_ne hb ..

end Cert.KernelIdeal.Fr

end
-- ==== Proof.FrILaunch.lean ====
/-
  The launch: @main as four segments — the five host operations of the norm, the six that finish the normalisation,
  the kernel region, the ten host operations after it — run one after the other from the launch memory.

  The two input windows of the region read ONE array (the normalised rows).  At the region's entry that array's buffer,
  held whole, is dealt half to each window; at its exit the two halves, still at the entry contents (inputs are never
  written), are joined again, and the output array is held at what the write-backs left.
-/
import proofs.«124586_j48335561949712_1_alg».proof.Proof.FrIBody
import proofs.«124586_j48335561949712_1_alg».proof.Proof.FrIStates
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers from segment to segment: the generator register at some state, and that the core owes nothing. -/
abbrev R (c : Dev nD) : sProp 𝕄 :=
  iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The norm's five operations, from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h)
    (fun c b => m (c, b)) R

/-- The six operations that finish the normalisation. -/
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h)
    (fun c => StableHlo.after hostOps0 (fun b => m (c, b))) R

/-- The ten operations after the region. -/
def seg2 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h)
    (V1 m) R

/-- The two buffers the region's windows read and write, among the unscoped ones. -/
abbrev v5 : DevRef τ sig := Proc.devRef .tc main_v5
abbrev v6 : DevRef τ sig := Proc.devRef .tc main_v6

theorem pair_sub : ({v5, v6} : Finset (DevRef τ sig)) ⊆ Pipeline.ucRefs τ sig := by decide

/-- The unscoped buffers held at a valuation: the normalised rows, the output array, and the rest. -/
theorem held_split (c : Dev nD) (W : Valuation τ sig (Elt F)) :
    (StableHlo.held (c : Thread nD τ) (Pipeline.ucRefs τ sig) W : sProp 𝕄)
      = iprop(((((c : Thread nD τ).1, v5) ↦{fullShare} W v5) ∗ (((c : Thread nD τ).1, v6) ↦{fullShare} W v6))
          ∗ StableHlo.held (c : Thread nD τ) (Pipeline.ucRefs τ sig \ {v5, v6}) W) := by
  rw [StableHlo.held_sub_split (c : Thread nD τ) pair_sub W]
  congr 1
  unfold StableHlo.held
  rw [bigSep_insert (by decide), bigSep_singleton]
  rfl

/-- Off the output array the contents at the region's exit are those at its entry. -/
theorem held_rest_eq (c : Dev nD) :
    (StableHlo.held (c : Thread nD τ) (Pipeline.ucRefs τ sig \ {v5, v6}) (V1 m c) : sProp 𝕄)
      = StableHlo.held (c : Thread nD τ) (Pipeline.ucRefs τ sig \ {v5, v6}) (V0 m c) :=
  StableHlo.held_congr (c : Thread nD τ) fun b hb => V1_of_ne m c b fun e => by
    subst e; exact (Finset.mem_sdiff.mp hb).2 (by decide)

/-- The region's arrays, window by window: the normalised rows held half by each input window, the output array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).1, v5) ↦{fullShare.left} G 0) ∗ (((c : Thread nD τ).1, v5) ↦{fullShare.right} G 1)
          ∗ (((c : Thread nD τ).1, v6) ↦{fullShare} G 2)) := by
  unfold Dat.arrays
  rw [bigSep_W0, (arr_whole0 0).set_eq_univ, (arr_whole0 2).set_eq_univ]
  rfl

/-- The normalised rows' buffer held whole is held half and half. -/
theorem split5 (c : Dev nD) (f : Buf (Elt F) ((c : Thread nD τ).1, v5)) :
    ((((c : Thread nD τ).1, v5) ↦{fullShare} f : sProp 𝕄))
      = iprop((((c : Thread nD τ).1, v5) ↦{fullShare.left} f) ∗ (((c : Thread nD τ).1, v5) ↦{fullShare.right} f)) :=
  equiv_iff.mp ⟨(pointsTo_share (PosShare.mem_left_op_right fullShare)).1, (pointsTo_share (PosShare.mem_left_op_right fullShare)).2⟩

set_option backward.isDefEq.respectTransparency.types false in
/-- The kernel region. -/
def reg : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(∃ r, prngReg c r)
  Y c := iprop(∃ r, prngReg c r)
  Z c := StableHlo.held (c : Thread nD τ) (Pipeline.ucRefs τ sig \ {v5, v6}) (V0 m c)
  hentry c := by
    rw [held_split, arrays_eq3, split5]
    iintro ⟨⟨⟨⟨⟨H5l, H5r⟩, H6⟩, Hrest⟩, ⟨Hp, HO⟩⟩, -, -⟩
    imodintro
    isplitl [H5l H5r H6]
    · isplitl [H5l]; · iexact H5l
      isplitl [H5r]; · iexact H5r
      iexact H6
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin m c)
    unfold Pipeline.ΦA
    iintro ⟨Hp, -, Hr⟩
    isplitl [Hr] <;> iassumption
  hout c := by
    refine (hout m c).trans ?_
    rw [Pipeline.ownSems0_none (nD := nD) (τ := τ) (sig := sig) (Ix := Unit) (Val := Elt F) (Name := ℕ) (U := UR sig nD τ) (Lvl := ℕ) c]; unfold Pipeline.ΦA
    iintro ⟨Hr, Hp⟩
    isplitl [Hp]; · iexact Hp
    isplitr; · iempintro
    iexact Hr
  hexit c := by
    rw [arrays_eq3, held_split, held_rest_eq, V1_out, V1_of_ne m c v5 (by decide),
      Dat.arrAt_in (dats m 0 c) 0 rfl, Dat.arrAt_in (dats m 0 c) 1 rfl, A_eq m c 0, A_eq m c 1, split5]
    iintro ⟨⟨H5l, H5r, H6⟩, HO, Hp, Hrest⟩
    imodintro
    isplitr [Hp HO]
    · isplitr [Hrest]
      · isplitr [H6]
        · isplitl [H5l]; · iexact H5l
          iexact H5r
        iexact H6
      iexact Hrest
    isplitl [Hp]; · iexact Hp
    unfold Pipeline.Dat.owesAt Pipeline.owesWithin
    icases HO with ⟨%W, -, HO⟩; iexists W; iexact HO

end Cert.KernelIdeal.Fr

end
-- ==== Proof.FrIRun.lean ====
/-
  The run of the whole program: the four segments composed from the launch memory, and what every unscoped buffer
  holds at the end.
-/
import proofs.«124586_j48335561949712_1_alg».proof.Proof.FrILaunch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main as the list of its four segments. -/
abbrev segs : List (Pipeline.Seg (pcfgs (F := F)) adm (dats m) () defs₀ 𝒱₀ L lv) :=
  [.host (seg0 m), .host (seg1 m), .region (reg m), .host (seg2 m)]

/-- The physical post: every unscoped buffer ends at the contents computed along @main. -/
def QC : PUnit × MemSt nD τ sig (Elt F) → Prop := fun r =>
  ∀ c : Dev nD, ∀ b : Ref sig .tc, b.isScoped = false → r.2.mem ((c : Thread nD τ).loc b) = V2 m c (Proc.devRef .tc b)

set_option maxHeartbeats 1000000 in
set_option backward.isDefEq.respectTransparency.types false in
/-- At the compiled mesh, for any float values, from any memory with zero counters: every weakly fair execution of
    @main terminates, nothing faulting, and every unscoped buffer ends at the contents computed along @main. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (V2 m c) ∗ ∃ r, prngReg c r))
    (hch := ⟨fun _ => .rfl, fun _ => .rfl, fun _ => .rfl, fun _ => .rfl, fun c => by
      show iprop(StableHlo.held (c : Thread nD τ) (Pipeline.ucRefs τ sig) (V2 m c) ∗ R c) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c : Thread nD τ).loc b) = V2 m c (Proc.devRef .tc b))
    (hfin := fun c s' => by
      rw [← Pipeline.unscopedBufs_held c (V2 m c)]
      unfold unscopedBufs
      iintro ⟨⟨Hh, -⟩, HSI⟩
      ihave Hr := (pointsTo_read_all (Finset.univ.filter fun b : Ref sig .tc => ¬ b.isScoped) (fun b => (c : Thread nD τ).loc b) (fun b => V2 m c (Proc.devRef .tc b)) s') $$ [Hh HSI]
      · isplitl [Hh] <;> iassumption
      icases Hr with ⟨%h, HSI⟩
      imodintro
      isplitr
      · ipureintro; intro b hb; exact h b (Finset.mem_filter.mpr ⟨Finset.mem_univ _, by simp [hb]⟩)
      iexact HSI)
    (hQ := fun _ h => h)

end Cert.KernelIdeal.Fr

end
-- ==== Proof.FrKShared.lean ====
/-
  What the three runs of the kernel body share.

  The grid is 8 × 8: point t = 8·I + j handles row tile I (1024 rows) against column tile j (1024 rows of the same
  array).  The body resets its accumulator when j = 0 (t ≡ 0 mod 8), adds the tile's contribution at every point, and
  copies the accumulator to the output block when j = 7 (t ≡ 7 mod 8).  So there are three control cases: first
  (reset, add), middle (add), last (add, copy out); the output window is idle, and not written back, except at the
  last column tile.
-/
import proofs.«124586_j48335561949712_1_alg».proof.Proof.Gen.Kernel.Launch
import proofs.«124586_j48335561949712_1_alg».proof.Proof.Gen.Kernel.Skeleton
import proofs.«124586_j48335561949712_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The reset condition: the column tile is the first. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- The copy-out condition: the column tile is the last. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem idle2_first : ∀ t : Fin cfg0.N, condFirst (grid0.coords t) → ¬condLast (grid0.coords t) → cfg0.idle 2 (grid0.coords t) = true := by decide +kernel
theorem noFlush2_first : ∀ t : Fin cfg0.N, condFirst (grid0.coords t) → ¬condLast (grid0.coords t) → (cfg0.win 2).flush t = false := by decide +kernel
theorem idle2_mid : ∀ t : Fin cfg0.N, ¬condFirst (grid0.coords t) → ¬condLast (grid0.coords t) → cfg0.idle 2 (grid0.coords t) = true := by decide +kernel
theorem noFlush2_mid : ∀ t : Fin cfg0.N, ¬condFirst (grid0.coords t) → ¬condLast (grid0.coords t) → (cfg0.win 2).flush t = false := by decide +kernel
theorem live2_last : ∀ t : Fin cfg0.N, ¬condFirst (grid0.coords t) → condLast (grid0.coords t) → cfg0.idle 2 (grid0.coords t) = false := by decide +kernel

/-! ## The staging memrefs at a point, and the accumulator -/

/-- One staging buffer of the output window, through which its contents are stated. -/
abbrev VO : View sig .tc .vmem S1024x1 .f32 := (Memref.whole cc0_stg2_0 : Memref sig .tc .vmem S1024x1 .f32).view
abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a whole scoped buffer of the kernel's own, carried from point to point. -/
abbrev scM : Memref sig .tc .vmem S1024x1 .f32 := Memref.whole cc0_scratch0
abbrev VS : View sig .tc .vmem S1024x1 .f32 := scM.view

/-- What the region hands the body besides the windows: the accumulator at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.FrKRunFirst.lean ====
/-
  The body at a FIRST column tile (reset, then add): it runs, leaves both input blocks and the idle output block as it found them, and leaves the accumulator with the pieces it stored (the reset value, then the sum), whatever the accumulator held before.
-/
import proofs.«124586_j48335561949712_1_alg».proof.Proof.FrKShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a first column tile, with the body's triple: the pieces are found by running the body. -/
noncomputable def runFirst (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i)
    (x0 x1 : Vec F S1024x768 .bf16) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kde_kernel i arg2 harg2 arg3 harg3 arg4 harg4 arg5 harg5) K } := by
  refine ⟨?_, fun xi2 E K => ?run⟩
  case run =>
    simp only [cc0__kde_kernel_eq_skeleton]; unfold cc0__kde_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.FrKRunMid.lean ====
/-
  The body at a MIDDLE column tile (add only): it runs from the accumulator at the contents the point before left, leaves both input blocks and the idle output block as it found them, and leaves the accumulator with the one piece it stored.
-/
import proofs.«124586_j48335561949712_1_alg».proof.Proof.FrKRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's pieces after the body at a middle column tile, with the body's triple. -/
noncomputable def runMid (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i)
    (x0 x1 : Vec F S1024x768 .bf16) (xs : Vec F S1024x1 .f32) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__kde_kernel i arg2 harg2 arg3 harg3 arg4 harg4 arg5 harg5) K } := by
  refine ⟨?_, fun xi2 E K => ?run⟩
  case run =>
    simp only [cc0__kde_kernel_eq_skeleton]; unfold cc0__kde_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.FrKRunLast.lean ====
/-
  The body at a LAST column tile (add, then copy out): it runs from the accumulator at the contents the point before left and the output block at anything, leaves both input blocks as it found them, the accumulator with the piece it stored, and the output block with the copy it stored.
-/
import proofs.«124586_j48335561949712_1_alg».proof.Proof.FrKRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The output block's and the accumulator's pieces after the body at a last column tile, with the body's triple. -/
noncomputable def runLast (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i)
    (x0 x1 : Vec F S1024x768 .bf16) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__kde_kernel i arg2 harg2 arg3 harg3 arg4 harg4 arg5 harg5) K } := by
  refine ⟨?_, ?_, fun E K => ?run⟩
  case run =>
    simp only [cc0__kde_kernel_eq_skeleton]; unfold cc0__kde_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Fr

end
-- ==== Proof.FrKData.lean ====
/-
  The proof data of the kernel region, and the body obligation at every grid point.

  Point t = 8·I + j.  After the body at t the accumulator holds: at j = 0 the tile's contribution added to the reset
  value; at j > 0 the tile's contribution added to what the point before left.  The output block is stored only at
  j = 7, with a copy of the accumulator; elsewhere it is idle and keeps what it held.  The two input windows read one
  array: window 0 its row tile I, window 1 its row tile j.
-/
import proofs.«124586_j48335561949712_1_alg».proof.Proof.FrKRunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers when the region is entered: the launch contents after the eleven host operations before it. -/
abbrev V0 (c : Dev nD) : Valuation τ sig (Elt F) := StableHlo.after hostOps0_1 (StableHlo.after hostOps0 (fun b => m (c, b)))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: the stored pieces read back -/

section Pieces
variable (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole)

theorem scoverFirst (hc0 : condFirst i) (hc1 : ¬condLast i) (x0 x1 : Vec F S1024x768 .bf16) (y : S1024x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x1.size (by sl_kernel_rfl) y
/-- The accumulator after a first column tile. -/
def soutFirst (hc0 : condFirst i) (hc1 : ¬condLast i) (x0 x1 : Vec F S1024x768 .bf16) : Vec F S1024x1 .f32 :=
  VS.read (Elt F) (VS.writes (Elt F) VS.junk (runFirst c i arg2 harg2 arg3 harg3 arg4 harg4 arg5 harg5 hc0 hc1 x0 x1).1)

theorem scoverMid (hc0 : ¬condFirst i) (hc1 : ¬condLast i) (x0 x1 : Vec F S1024x768 .bf16) (xs : Vec F S1024x1 .f32) (y : S1024x1.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x1.size (by sl_kernel_rfl) y
/-- The accumulator after a middle column tile. -/
def soutMid (hc0 : ¬condFirst i) (hc1 : ¬condLast i) (x0 x1 : Vec F S1024x768 .bf16) (xs : Vec F S1024x1 .f32) : Vec F S1024x1 .f32 :=
  VS.read (Elt F) (VS.writes (Elt F) VS.junk (runMid c i arg2 harg2 arg3 harg3 arg4 harg4 arg5 harg5 hc0 hc1 x0 x1 xs).1)

theorem coverLast (hc0 : ¬condFirst i) (hc1 : condLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x1.size (by sl_kernel_rfl) y
/-- The output block after a last column tile. -/
def outLast (hc0 : ¬condFirst i) (hc1 : condLast i) (x0 x1 : Vec F S1024x768 .bf16) (xs : Vec F S1024x1 .f32) : Vec F S1024x1 .f32 :=
  VO.read (Elt F) (VO.writes (Elt F) VO.junk (runLast c i arg2 harg2 arg3 harg3 arg4 harg4 arg5 harg5 hc0 hc1 x0 x1 xs).1)
theorem scoverLast (hc0 : ¬condFirst i) (hc1 : condLast i) (x0 x1 : Vec F S1024x768 .bf16) (xs : Vec F S1024x1 .f32) (y : S1024x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1.size (by sl_kernel_rfl) y
/-- The accumulator after a last column tile. -/
def soutLast (hc0 : ¬condFirst i) (hc1 : condLast i) (x0 x1 : Vec F S1024x768 .bf16) (xs : Vec F S1024x1 .f32) : Vec F S1024x1 .f32 :=
  VS.read (Elt F) (VS.writes (Elt F) VS.junk (runLast c i arg2 harg2 arg3 harg3 arg4 harg4 arg5 harg5 hc0 hc1 x0 x1 xs).2.1)

end Pieces

/-- The idle output block's placeholder: nothing consults it (the block is neither written back nor read). -/
def idleOut : Vec F S1024x1 .f32 := VO.read (Elt F) VO.junk

/-! ## The accumulation, point by point -/

/-- What the output block and the accumulator hold after the body at position n (a pair). -/
def outsAt (c : Dev nD) : (n : ℕ) → n < cfg0.N → Vec F S1024x1 .f32 × Vec F S1024x1 .f32
  | 0, hn => (idleOut, soutFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (idleOut, soutFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 8 = 7 then
        (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2,
         soutLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (idleOut, soutMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_first (c : Dev nD) (t : Fin cfg0.N) (h0 : t.val % 8 = 0) (h1 : ¬t.val % 8 = 7) :
    outsAt m c t.val t.isLt = (idleOut, soutFirst c (grid0.coords t) (ms0 t) (hs0 t) (ms1 t) (hs1 t) (ms2 t) (hs2 t) scM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (idleOut, soutMid c (grid0.coords t) (ms0 t) (hs0 t) (ms1 t) (hs1 t) (ms2 t) (hs2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2,
      soutLast c (grid0.coords t) (ms0 t) (hs0 t) (ms1 t) (hs1 t) (ms2 t) (hs2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the accumulator at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; each input block in place after the body, the output block at the
    accumulation's first component; the invariant above; the one shared input array held half by each input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

end Cert.Kernel.Fr

end
-- ==== Proof.FrKBody.lean ====
/-
  The body obligation: at every grid point the body, called with the staging buffers of the three windows and the
  accumulator, runs and leaves what the proof data says.  Which case a point is in is decided by its position modulo 8.
-/
import proofs.«124586_j48335561949712_1_alg».proof.Proof.FrKData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases h0 : t.val % 8 = 0
  · have h1 : ¬t.val % 8 = 7 := by omega
    rw [Dat.leavesExact_idle (dats m 0 c) 2 t (idle2_first t ((hcondFirst t).mpr h0) (fun h => h1 ((hcondLast t).mp h))) (noFlush2_first t ((hcondFirst t).mpr h0) (fun h => h1 ((hcondLast t).mp h)))]
    rw [outsAt_first m c t h0 h1]
    unfold soutFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ ((hcondFirst t).mpr h0) (fun h => h1 ((hcondLast t).mp h)) (iblk m c 0 t) (iblk m c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverFirst c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 2 t = owns (c : Thread nD τ) (ms2 t) fullShare ((dats m 0 c).after 2 t) from by
        unfold Dat.leavesExact; rw [live2_last t (fun h => h0 ((hcondFirst t).mp h)) ((hcondLast t).mpr h1)], after2]
      rw [outsAt_last m c t h0 h1]
      unfold outLast soutLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (scoverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dats m 0 c) 2 t (idle2_mid t (fun h => h0 ((hcondFirst t).mp h)) (fun h => h1 ((hcondLast t).mp h))) (noFlush2_mid t (fun h => h0 ((hcondFirst t).mp h)) (fun h => h1 ((hcondLast t).mp h)))]
      rw [outsAt_mid m c t h0 h1]
      unfold soutMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (scoverMid c _ _ _ _ _ _ _ _ _ _ _ _ _ _)
        iexact Hg
      isplitl [Ho]; · iexact Ho
      isplitl [H0]; · iexact H0
      isplitl [H1]; · iexact H1
      iexists _; iexact H2
/-- The body obligation, at every point. -/
theorem body_obligation (c : Dev nD) : BodyObligation (dats (F := F) m 0 c) (defs₀ (F := F)) Variants.none () Set.univ := fun t => by
  rw [bigSep_W0, bigSep_W0]
  exact sound_body m c t

/-- What the region hands the body first is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the accumulator back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Fr

end
-- ==== Proof.FrKStates.lean ====
/-
  The buffers' contents along @main: at launch, when the region is entered (FrKData's V0), when it is left — the output
  array replaced by what the write-backs leave —, and at the end, after the ten host operations that follow the region.
-/
import proofs.«124586_j48335561949712_1_alg».proof.Proof.FrKData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers when the region is left: as it found them, but for the output array. -/
def V1 (c : Dev nD) : Valuation τ sig (Elt F) :=
  Function.update (V0 m c) (Proc.devRef .tc main_v6) ((dats m 0 c).arrAt 2 cfg0.N)

/-- Core c's buffers at the end of @main. -/
def V2 (c : Dev nD) : Valuation τ sig (Elt F) := StableHlo.after hostOps1 (V1 m c)

theorem V1_out (c : Dev nD) : V1 m c (Proc.devRef .tc main_v6) = (dats m 0 c).arrAt 2 cfg0.N := by
  unfold V1; exact Function.update_self ..

theorem V1_of_ne (c : Dev nD) (b : DevRef τ sig) (hb : b ≠ Proc.devRef .tc main_v6) : V1 m c b = V0 m c b := by
  unfold V1; exact Function.update_of_ne hb ..

end Cert.Kernel.Fr

end
-- ==== Proof.FrKLaunch.lean ====
/-
  The launch: @main as four segments — the five host operations of the norm, the six that finish the normalisation,
  the kernel region, the ten host operations after it — run one after the other from the launch memory.

  The two input windows of the region read ONE array (the normalised rows).  At the region's entry that array's buffer,
  held whole, is dealt half to each window; at its exit the two halves, still at the entry contents (inputs are never
  written), are joined again, and the output array is held at what the write-backs left.
-/
import proofs.«124586_j48335561949712_1_alg».proof.Proof.FrKBody
import proofs.«124586_j48335561949712_1_alg».proof.Proof.FrKStates
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers from segment to segment: the generator register at some state, and that the core owes nothing. -/
abbrev R (c : Dev nD) : sProp 𝕄 :=
  iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The norm's five operations, from the launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h)
    (fun c b => m (c, b)) R

/-- The six operations that finish the normalisation. -/
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h)
    (fun c => StableHlo.after hostOps0 (fun b => m (c, b))) R

/-- The ten operations after the region. -/
def seg2 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h)
    (V1 m) R

/-- The two buffers the region's windows read and write, among the unscoped ones. -/
abbrev v5 : DevRef τ sig := Proc.devRef .tc main_v5
abbrev v6 : DevRef τ sig := Proc.devRef .tc main_v6

theorem pair_sub : ({v5, v6} : Finset (DevRef τ sig)) ⊆ Pipeline.ucRefs τ sig := by decide

/-- The unscoped buffers held at a valuation: the normalised rows, the output array, and the rest. -/
theorem held_split (c : Dev nD) (W : Valuation τ sig (Elt F)) :
    (StableHlo.held (c : Thread nD τ) (Pipeline.ucRefs τ sig) W : sProp 𝕄)
      = iprop(((((c : Thread nD τ).1, v5) ↦{fullShare} W v5) ∗ (((c : Thread nD τ).1, v6) ↦{fullShare} W v6))
          ∗ StableHlo.held (c : Thread nD τ) (Pipeline.ucRefs τ sig \ {v5, v6}) W) := by
  rw [StableHlo.held_sub_split (c : Thread nD τ) pair_sub W]
  congr 1
  unfold StableHlo.held
  rw [bigSep_insert (by decide), bigSep_singleton]
  rfl

/-- Off the output array the contents at the region's exit are those at its entry. -/
theorem held_rest_eq (c : Dev nD) :
    (StableHlo.held (c : Thread nD τ) (Pipeline.ucRefs τ sig \ {v5, v6}) (V1 m c) : sProp 𝕄)
      = StableHlo.held (c : Thread nD τ) (Pipeline.ucRefs τ sig \ {v5, v6}) (V0 m c) :=
  StableHlo.held_congr (c : Thread nD τ) fun b hb => V1_of_ne m c b fun e => by
    subst e; exact (Finset.mem_sdiff.mp hb).2 (by decide)

/-- The region's arrays, window by window: the normalised rows held half by each input window, the output array whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).1, v5) ↦{fullShare.left} G 0) ∗ (((c : Thread nD τ).1, v5) ↦{fullShare.right} G 1)
          ∗ (((c : Thread nD τ).1, v6) ↦{fullShare} G 2)) := by
  unfold Dat.arrays
  rw [bigSep_W0, (arr_whole0 0).set_eq_univ, (arr_whole0 2).set_eq_univ]
  rfl

/-- The normalised rows' buffer held whole is held half and half. -/
theorem split5 (c : Dev nD) (f : Buf (Elt F) ((c : Thread nD τ).1, v5)) :
    ((((c : Thread nD τ).1, v5) ↦{fullShare} f : sProp 𝕄))
      = iprop((((c : Thread nD τ).1, v5) ↦{fullShare.left} f) ∗ (((c : Thread nD τ).1, v5) ↦{fullShare.right} f)) :=
  equiv_iff.mp ⟨(pointsTo_share (PosShare.mem_left_op_right fullShare)).1, (pointsTo_share (PosShare.mem_left_op_right fullShare)).2⟩

set_option backward.isDefEq.respectTransparency.types false in
/-- The kernel region. -/
def reg : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(∃ r, prngReg c r)
  Y c := iprop(∃ r, prngReg c r)
  Z c := StableHlo.held (c : Thread nD τ) (Pipeline.ucRefs τ sig \ {v5, v6}) (V0 m c)
  hentry c := by
    rw [held_split, arrays_eq3, split5]
    iintro ⟨⟨⟨⟨⟨H5l, H5r⟩, H6⟩, Hrest⟩, ⟨Hp, HO⟩⟩, -, -⟩
    imodintro
    isplitl [H5l H5r H6]
    · isplitl [H5l]; · iexact H5l
      isplitl [H5r]; · iexact H5r
      iexact H6
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin m c)
    unfold Pipeline.ΦA
    iintro ⟨Hp, -, Hr⟩
    isplitl [Hr] <;> iassumption
  hout c := by
    refine (hout m c).trans ?_
    rw [Pipeline.ownSems0_none (nD := nD) (τ := τ) (sig := sig) (Ix := Unit) (Val := Elt F) (Name := ℕ) (U := UR sig nD τ) (Lvl := ℕ) c]; unfold Pipeline.ΦA
    iintro ⟨Hr, Hp⟩
    isplitl [Hp]; · iexact Hp
    isplitr; · iempintro
    iexact Hr
  hexit c := by
    rw [arrays_eq3, held_split, held_rest_eq, V1_out, V1_of_ne m c v5 (by decide),
      Dat.arrAt_in (dats m 0 c) 0 rfl, Dat.arrAt_in (dats m 0 c) 1 rfl, A_eq m c 0, A_eq m c 1, split5]
    iintro ⟨⟨H5l, H5r, H6⟩, HO, Hp, Hrest⟩
    imodintro
    isplitr [Hp HO]
    · isplitr [Hrest]
      · isplitr [H6]
        · isplitl [H5l]; · iexact H5l
          iexact H5r
        iexact H6
      iexact Hrest
    isplitl [Hp]; · iexact Hp
    unfold Pipeline.Dat.owesAt Pipeline.owesWithin
    icases HO with ⟨%W, -, HO⟩; iexists W; iexact HO

end Cert.Kernel.Fr

end
-- ==== Proof.FrKRun.lean ====
/-
  The run of the whole program: the four segments composed from the launch memory, and what every unscoped buffer
  holds at the end.
-/
import proofs.«124586_j48335561949712_1_alg».proof.Proof.FrKLaunch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main as the list of its four segments. -/
abbrev segs : List (Pipeline.Seg (pcfgs (F := F)) adm (dats m) () defs₀ 𝒱₀ L lv) :=
  [.host (seg0 m), .host (seg1 m), .region (reg m), .host (seg2 m)]

/-- The physical post: every unscoped buffer ends at the contents computed along @main. -/
def QC : PUnit × MemSt nD τ sig (Elt F) → Prop := fun r =>
  ∀ c : Dev nD, ∀ b : Ref sig .tc, b.isScoped = false → r.2.mem ((c : Thread nD τ).loc b) = V2 m c (Proc.devRef .tc b)

set_option maxHeartbeats 1000000 in
set_option backward.isDefEq.respectTransparency.types false in
/-- At the compiled mesh, for any float values, from any memory with zero counters: every weakly fair execution of
    @main terminates, nothing faulting, and every unscoped buffer ends at the contents computed along @main. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (V2 m c) ∗ ∃ r, prngReg c r))
    (hch := ⟨fun _ => .rfl, fun _ => .rfl, fun _ => .rfl, fun _ => .rfl, fun c => by
      show iprop(StableHlo.held (c : Thread nD τ) (Pipeline.ucRefs τ sig) (V2 m c) ∗ R c) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (fun b => m (c, b)) from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c : Thread nD τ).loc b) = V2 m c (Proc.devRef .tc b))
    (hfin := fun c s' => by
      rw [← Pipeline.unscopedBufs_held c (V2 m c)]
      unfold unscopedBufs
      iintro ⟨⟨Hh, -⟩, HSI⟩
      ihave Hr := (pointsTo_read_all (Finset.univ.filter fun b : Ref sig .tc => ¬ b.isScoped) (fun b => (c : Thread nD τ).loc b) (fun b => V2 m c (Proc.devRef .tc b)) s') $$ [Hh HSI]
      · isplitl [Hh] <;> iassumption
      icases Hr with ⟨%h, HSI⟩
      imodintro
      isplitr
      · ipureintro; intro b hb; exact h b (Finset.mem_filter.mpr ⟨Finset.mem_univ _, by simp [hb]⟩)
      iexact HSI)
    (hQ := fun _ h => h)

end Cert.Kernel.Fr

end
-- ==== Proof.FrIArg.lean ====
/-
  The argument is never written: no host operation of the three stretches writes it, and the region replaces only its
  output array.  So the argument ends @main as it was launched, whatever the float values are.
-/
import proofs.«124586_j48335561949712_1_alg».proof.Proof.FrIStates
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL.Sem

variable {F : FTy → Type} [FloatOps F]

/-- None of the five operations that take the rows' norms writes the argument. -/
theorem arg0_not_written0 :
    ∀ op ∈ (hostOps0 : List (HloOp τ sig (Elt F))), Proc.devRef .tc main_arg0 ∉ op.writes :=
  List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide))

/-- None of the six operations that divide by the norms and change the format writes the argument. -/
theorem arg0_not_written0_1 :
    ∀ op ∈ (hostOps0_1 : List (HloOp τ sig (Elt F))), Proc.devRef .tc main_arg0 ∉ op.writes :=
  List.forall_iff_forall_mem.mp (by
    simp only [hostOps0_1, List.Forall, StableHlo.nullary_writes, StableHlo.unary_writes, StableHlo.binary_writes,
      Finset.mem_singleton]
    repeat' apply And.intro
    all_goals exact StableHlo.devRef_ne_of_ne (by decide))

/-- None of the ten operations after the region writes the argument. -/
theorem arg0_not_written1 :
    ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide))

/-- The argument ends as launched. -/
theorem end_arg0 (m : (ℓ : Loc nD τ sig) → Buf (Elt F) ℓ) (c : Dev nD) :
    V2 m c (Proc.devRef .tc main_arg0) = m ((c : Thread nD τ).loc main_arg0) := by
  unfold V2
  refine (StableHlo.after_of_forall_not_mem (b := Proc.devRef .tc main_arg0) hostOps1 (V1 m c) arg0_not_written1).trans ?_
  refine (V1_of_ne m c _ (StableHlo.devRef_ne_of_ne (by decide))).trans ?_
  show StableHlo.after hostOps0_1 (StableHlo.after hostOps0 (fun b => m (c, b))) (Proc.devRef .tc main_arg0) = _
  refine (StableHlo.after_of_forall_not_mem (b := Proc.devRef .tc main_arg0) hostOps0_1 _ arg0_not_written0_1).trans ?_
  refine (StableHlo.after_of_forall_not_mem (b := Proc.devRef .tc main_arg0) hostOps0 _ arg0_not_written0).trans ?_
  rfl

end Cert.KernelIdeal.Fr

end
-- ==== Proof.FrKArg.lean ====
/-
  The argument is never written: no host operation of the three stretches writes it, and the region replaces only its
  output array.  So the argument ends @main as it was launched, whatever the float values are.
-/
import proofs.«124586_j48335561949712_1_alg».proof.Proof.FrKStates
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.StableHlo
open Idealize.SL.Sem

variable {F : FTy → Type} [FloatOps F]

/-- None of the five operations that take the rows' norms writes the argument. -/
theorem arg0_not_written0 :
    ∀ op ∈ (hostOps0 : List (HloOp τ sig (Elt F))), Proc.devRef .tc main_arg0 ∉ op.writes :=
  List.forall_iff_forall_mem.mp (by
    simp only [hostOps0, List.Forall, StableHlo.nullary_writes, StableHlo.unary_writes, StableHlo.binary_writes,
      Finset.mem_singleton]
    repeat' apply And.intro
    all_goals exact StableHlo.devRef_ne_of_ne (by decide))

/-- None of the six operations that divide by the norms and change the format writes the argument. -/
theorem arg0_not_written0_1 :
    ∀ op ∈ (hostOps0_1 : List (HloOp τ sig (Elt F))), Proc.devRef .tc main_arg0 ∉ op.writes :=
  List.forall_iff_forall_mem.mp (by
    simp only [hostOps0_1, List.Forall, StableHlo.nullary_writes, StableHlo.unary_writes, StableHlo.binary_writes,
      Finset.mem_singleton]
    repeat' apply And.intro
    all_goals exact StableHlo.devRef_ne_of_ne (by decide))

/-- None of the ten operations after the region writes the argument. -/
theorem arg0_not_written1 :
    ∀ op ∈ (hostOps1 : List (HloOp τ sig (Elt F))), Proc.devRef .tc main_arg0 ∉ op.writes :=
  List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide))

/-- The argument ends as launched. -/
theorem end_arg0 (m : (ℓ : Loc nD τ sig) → Buf (Elt F) ℓ) (c : Dev nD) :
    V2 m c (Proc.devRef .tc main_arg0) = m ((c : Thread nD τ).loc main_arg0) := by
  unfold V2
  refine (StableHlo.after_of_forall_not_mem (b := Proc.devRef .tc main_arg0) hostOps1 (V1 m c) arg0_not_written1).trans ?_
  refine (V1_of_ne m c _ (StableHlo.devRef_ne_of_ne (by decide))).trans ?_
  show StableHlo.after hostOps0_1 (StableHlo.after hostOps0 (fun b => m (c, b))) (Proc.devRef .tc main_arg0) = _
  refine (StableHlo.after_of_forall_not_mem (b := Proc.devRef .tc main_arg0) hostOps0_1 _ arg0_not_written0_1).trans ?_
  refine (StableHlo.after_of_forall_not_mem (b := Proc.devRef .tc main_arg0) hostOps0 _ arg0_not_written0).trans ?_
  rfl

end Cert.Kernel.Fr

end
-- ==== Proof.RefParts.lean ====
/-
  The two stretches of host operations that both programs apply, named once.

  nrm x divides every row of x by the larger of its Euclidean norm and 1e-12: the square root of the row's sum of squares,
  kept as a column, is compared with the constant and broadcast back over the row.
  tail d is minus the mean of log (d + 1e-9) over the 8192 entries of d.
  Both are written with the very operations of the program, in its order, on the extended reals; nothing below opens them.
-/
import proofs.«124586_j48335561949712_1_alg».proof.Proof.Gen.ReferenceIdeal
import Idealize.ShloMosaic.PureOps.Ideal

noncomputable section

namespace Cert.Kde.Ref

open Cert.ReferenceIdeal Cert.ReferenceIdeal.Gen Idealize.ShloMosaic

/-- The rows of x, each divided by max (its Euclidean norm, 1e-12). -/
def nrm (x : FVec Ideal S8192x768 .f32) : FVec Ideal S8192x768 .f32 :=
  Host.divf (F := Ideal) x
    (broadcastInDim S8192x768 ![0, 1] bcast_S8192x1_S8192x768_0_1
      (maximumf
        (Host.sqrt (F := Ideal)
          (broadcastInDim S8192x1 ![0] bcast_S8192_S8192x1_0
            (Host.reduceAdd (F := Ideal) (mulf x x) (constant (F := Ideal) S_ .f32 0x00000000#32)
              reducesTo_S8192x768_S8192_d1 h_S_)))
        (broadcastInDim S8192x1 ![] bcast_S_S8192x1 (constant (F := Ideal) S_ .f32 0x2B8CBCCC#32))))

/-- Minus the mean over the 8192 entries of log (d + 1e-9). -/
def tail (d : FVec Ideal S8192 .f32) : FVec Ideal S_ .f32 :=
  Host.negf (F := Ideal)
    (Host.divf (F := Ideal)
      (Host.reduceAdd (F := Ideal)
        (Host.log (F := Ideal) (addf d (broadcastInDim S8192 ![] bcast_S_S8192 (constant (F := Ideal) S_ .f32 0x3089705F#32))))
        (constant (F := Ideal) S_ .f32 0x00000000#32) reducesTo_S8192_S_d0 h_S_)
      (constant (F := Ideal) S_ .f32 0x46000000#32))

end Cert.Kde.Ref

end
-- ==== Proof.Spec.lean ====
/-
  The quantity both programs compute, on the extended reals.

  For an array n of 8192 rows of 768 entries (the rows after normalisation) the density of row r is
      dens n r = Σ_k exp (5 · Σ_d n(r,d) · n(k,d)),      k over all 8192 rows,
  the sum over every row k of the exponential kernel of the inner product of rows r and k.  The scalar 5 is kept as
  the f32 word both programs print for it, so it is never evaluated.  The loss is a fixed function of the vector of
  densities; that function is the same host operations in both programs and is never opened.
-/
import Idealize.ShloMosaic.Lib.ValueIdx
import Idealize.ShloMosaic.PureOps.Ideal.Laws

noncomputable section

open scoped BigOperators

namespace Cert.Kde

open Idealize.ShloMosaic Idealize.ShloMosaic.ValueIdx

/-- The exponential kernel of two rows of n: exp (5 · ⟨row r, row k⟩). -/
def kern (n : (⟨2, ![8192, 768]⟩ : Shape).Idx → EReal) (r k : Fin 8192) : EReal :=
  Ideal.exp (Ideal.ofBits .f32 0x40A00000#32 * ∑ d : Fin 768, n (ix2 r d) * n (ix2 k d))

/-- The density of row r: the kernel summed over every row. -/
def dens (n : (⟨2, ![8192, 768]⟩ : Shape).Idx → EReal) (r : Fin 8192) : EReal :=
  ∑ k : Fin 8192, kern n r k

/-- The densities as a vector of 8192 entries. -/
def densVec (n : (⟨2, ![8192, 768]⟩ : Shape).Idx → EReal) : (⟨1, ![8192]⟩ : Shape).Idx → EReal :=
  fun i => dens n (i 0)

/-- The densities as one column, 8192 rows of one entry. -/
def densCol (n : (⟨2, ![8192, 768]⟩ : Shape).Idx → EReal) : (⟨2, ![8192, 1]⟩ : Shape).Idx → EReal :=
  fun i => dens n (i 0)

theorem densVec_ix1 (n : (⟨2, ![8192, 768]⟩ : Shape).Idx → EReal) (r : Fin 8192) : densVec n (ix1 r) = dens n r := rfl
theorem densCol_ix2 (n : (⟨2, ![8192, 768]⟩ : Shape).Idx → EReal) (r : Fin 8192) (u : Fin 1) : densCol n (ix2 r u) = dens n r := rfl

end Cert.Kde

end
-- ==== Proof.FrIBridge.lean ====
/-
  The kernel program's host operations, joined to the two shared stretches.

  Before the region the program normalises the rows of its argument exactly as nrm does and then changes the float
  format, which is the identity on the extended reals: the array both input windows read is nrm of the argument.
  After the region it flattens the column of densities to a vector and applies tail.
-/
import proofs.«124586_j48335561949712_1_alg».proof.Proof.FrIArg
import proofs.«124586_j48335561949712_1_alg».proof.Proof.RefParts
import proofs.«124586_j48335561949712_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.StableHlo Idealize.ShloMosaic.ValueIdx
open Idealize.SL.Sem

/-! ## Entering the region: the input array is the normalised rows -/

/-- The array the two input windows read is the rows of the argument, each divided by max (its norm, 1e-12). -/
theorem entry_v5 (m : (ℓ : Loc nD τ sig) → Buf (Elt Ideal) ℓ) (c : Dev nD) :
    (V (F := Ideal) m c main_v5 : S8192x768.Idx → EReal) = Cert.Kde.Ref.nrm (m ((c : Thread nD τ).loc main_arg0)) := by
  dsimp only [V, V0]
  after_results
  rfl

/-! ## Leaving @main: the result is the tail of the densities -/

/-- The column of densities flattened to a vector is the vector of densities: entry r of either is the density of row r. -/
theorem flat_densCol (n : (⟨2, ![8192, 768]⟩ : Shape).Idx → EReal) :
    (fun i : S8192.Idx => shapeCast S8192 (Cert.Kde.densCol n) shapeCasts_S8192x1_S8192 i) = Cert.Kde.densVec n := by
  funext i
  obtain ⟨r, rfl⟩ : ∃ r : Fin 8192, i = ix1 r := ⟨i 0, eq_ix1 i⟩
  refine (shapeCast_apply (Cert.Kde.densCol n) shapeCasts_S8192x1_S8192 (ix1 r) (ix2 r (0 : Fin 1)) ?_).trans rfl
  rw [Shape.rowMajor_val_two, Shape.rowMajor_val_one]
  show r.val * 1 + 0 = r.val
  omega

/-- If the region leaves the column of densities of n in its output array, @main ends with tail of the vector of
    densities of n in its result. -/
theorem end_v13 (m : (ℓ : Loc nD τ sig) → Buf (Elt Ideal) ℓ) (c : Dev nD) (n : (⟨2, ![8192, 768]⟩ : Shape).Idx → EReal)
    (hout : ((dats (F := Ideal) m 0 c).arrAt 2 cfg0.N : S8192x1.Idx → EReal) = Cert.Kde.densCol n) :
    (V2 (F := Ideal) m c (Proc.devRef .tc main_v13) : S_.Idx → EReal) = Cert.Kde.Ref.tail (Cert.Kde.densVec n) := by
  unfold V2
  after_results
  rw [V1_out, hout]
  refine Eq.trans ?_ (congrArg Cert.Kde.Ref.tail (flat_densCol n))
  rfl

end Cert.KernelIdeal.Fr

end
-- ==== Proof.FrIValue.lean ====
/-
  What the body leaves in the accumulator and in the output block, case by case, as the arithmetic of one step.

  In every case the stored pieces are whole-block stores, so reading them back gives the stored value itself: at a
  first column tile the reset value plus the tile's contribution, at a middle or last column tile the old accumulator
  plus the tile's contribution, and at a last column tile the output block receives a copy of that.
-/
import proofs.«124586_j48335561949712_1_alg».proof.Proof.FrIBody
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The zero offsets of a whole-block access. -/
theorem hz : (![0, 0] : Fin 2 → Nat) = fun _ => 0 := funext fun a => by fin_cases a <;> rfl

/-! ## What each case leaves, as the arithmetic of the step -/

section Pieces
variable (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .f32) (harg4 : arg4.IsWhole) (arg5 : Memref sig .tc .vmem S1024x1 .f32) (harg5 : arg5.IsWhole)

/-- At a middle column tile the accumulator is left at the old accumulator plus the tile's contribution. -/
theorem soutMid_eq (hc0 : ¬condFirst i) (hc1 : ¬condLast i) (x0 x1 : Vec F S1024x768 .bf16) (xs : Vec F S1024x1 .f32) :
    soutMid c i arg2 harg2 arg3 harg3 arg4 harg4 arg5 harg5 hc0 hc1 x0 x1 xs = k0_pay2 x0 x1 xs := by
  unfold soutMid
  rw [View.read_writes_eq_canon _ _ _ (scoverMid c i arg2 harg2 arg3 harg3 arg4 harg4 arg5 harg5 hc0 hc1 x0 x1 xs)]
  unfold runMid
  dsimp only
  rw [View.canon_unit_zero hz]
  simp only [View.readAt_eq_ld, harg2.read_unread, harg3.read_unread, harg5.read_unread,
    View.ld_unit_zero (S := S1024x768) hz, View.ld_unit_zero (S := S1024x1) hz]

/-- At a first column tile the accumulator is left at the reset value plus the tile's contribution: the reset value is
    stored, read back, and added to. -/
theorem soutFirst_eq (hc0 : condFirst i) (hc1 : ¬condLast i) (x0 x1 : Vec F S1024x768 .bf16) :
    soutFirst c i arg2 harg2 arg3 harg3 arg4 harg4 arg5 harg5 hc0 hc1 x0 x1 = k0_pay2 x0 x1 (k0_pay1 (F := F)) := by
  unfold soutFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S1024x1) hz, View.readCov_unit_zero (S := S1024x1) _ hz]
  simp only [View.readAt_eq_ld, harg2.read_unread, harg3.read_unread,
    View.ld_unit_zero (S := S1024x768) hz]

/-- At a last column tile the accumulator is left at the old accumulator plus the tile's contribution … -/
theorem soutLast_eq (hc0 : ¬condFirst i) (hc1 : condLast i) (x0 x1 : Vec F S1024x768 .bf16) (xs : Vec F S1024x1 .f32) :
    soutLast c i arg2 harg2 arg3 harg3 arg4 harg4 arg5 harg5 hc0 hc1 x0 x1 xs = k0_pay2 x0 x1 xs := by
  unfold soutLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread,
    View.ld_unit_zero (S := S1024x768) hz, View.ld_unit_zero (S := S1024x1) hz]

/-- … and the output block at a copy of it: the accumulator just stored is read back and stored to the output block. -/
theorem outLast_eq (hc0 : ¬condFirst i) (hc1 : condLast i) (x0 x1 : Vec F S1024x768 .bf16) (xs : Vec F S1024x1 .f32) :
    outLast c i arg2 harg2 arg3 harg3 arg4 harg4 arg5 harg5 hc0 hc1 x0 x1 xs = k0_pay2 x0 x1 xs := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz, View.readCov_unit_zero (S := S1024x1) _ hz]
  simp only [View.readAt_eq_ld, harg2.read_unread, harg3.read_unread, harg5.read_unread,
    View.ld_unit_zero (S := S1024x768) hz, View.ld_unit_zero (S := S1024x1) hz]

end Pieces

end Cert.KernelIdeal.Fr

end
-- ==== Proof.LibMatProdT.lean ====
/-
  A matrix unit's product whose right operand is stored with the contracted axis LAST: for an `n × k` array `A` and an
  `m × k` array `B`, contracting the second axis of both onto the zero accumulator gives, at `(p, q)`, the sum over `l` of
  `A (p, l) * B (q, l)` — the entries of `A · Bᵀ` without the transpose ever being formed.  Also a row maximum: a
  `maximumf` reduction of a rank-2 array along its last axis reads, at row `p`, the fold of `max` from the accumulator's
  value over that row.  Generic extents; indices are built from coordinates.
-/
import Idealize.ShloMosaic.Lib.ValueIdx
import Idealize.ShloMosaic.PureOps.Ideal.Laws

noncomputable section

open scoped BigOperators

namespace MatProdT

open Idealize.ShloMosaic Idealize.ShloMosaic.ValueIdx

/-- The product onto the zero accumulator with both operands contracted along their second axis. -/
theorem matmul_zero_entry_T {n k m : ℕ} {φ₁ φ₂ : FTy}
    (d : DotDims (⟨2, ![n, k]⟩ : Shape) (⟨2, ![m, k]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (j 1).val)
    (hr1 : ∀ (j : (⟨2, ![n, m]⟩ : Shape).Idx) (c : d.contr.Idx), (d.rhsIdx j c 1).val = (c ⟨0, by omega⟩).val)
    (lhs : FVec Ideal (⟨2, ![n, k]⟩ : Shape) φ₁) (rhs : FVec Ideal (⟨2, ![m, k]⟩ : Shape) φ₂) (p : Fin n) (q : Fin m) :
    FloatOps.matmul d prec lhs rhs (constant (F := Ideal) (⟨2, ![n, m]⟩ : Shape) .f32 0x00000000#32) (ix2 p q)
      = ∑ l : Fin k, lhs (ix2 p l) * rhs (ix2 q l) := by
  rw [Ideal.matmul_constant_zero_apply, ← Equiv.sum_comp (contrEquiv1 d k hr hs).symm]
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 q l := funext fun a => Fin.ext (by
    match a with
    | ⟨0, _⟩ => exact hr0 _ _
    | ⟨1, _⟩ => exact (hr1 _ _).trans hk)
  rw [el, er]

/-- A row maximum: the fold of `max` from the accumulator's value over the row's entries. -/
theorem max_ab_1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have e : (src ∘ h.lift (ix1 i)) = fun k : Fin b => src (ix2 i k) := funext fun k => congrArg src (funext fun ax => Fin.ext (by
    match ax with | ⟨0, _⟩ => rfl | ⟨1, _⟩ => rfl))
  exact congrArg (fun f => Finset.fold max (Ideal.ofBits φ acc) f (Finset.univ : Finset (Fin b))) e

end MatProdT

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibRowStat.lean ====
/-
  A row statistic of a rank-2 array kept as a column and stretched back over the row: the `keepdims` maximum and the
  `keepdims` sum along the last axis, each reshaped `[a] → [a, 1]` and broadcast `[a, 1] → [a, b]`, read at `(p, r)`:
  the fold of `max` from −∞, or the sum, over row `p` — the same at every `r`.  Also the column `[a, 1]` itself read at
  `(p, 0)`.  The arrays are single-precision; the reductions start from the words a program prints for them, the zero
  word for a sum and the word of −∞ for a maximum, and the side conditions are typed as a printed program proves them.
  The exponential and the reciprocal square root of an array of extended reals are taken entry by entry.  Generic
  extents; indices are built from coordinates.
-/
import Idealize.ShloMosaic.Lib.Pipeline.Value
import Idealize.ShloMosaic.Lib.ValueIdx
import Idealize.ShloMosaic.PureOps.Ideal.Laws
import proofs.«124586_j48335561949712_1_alg».proof.Proof.LibLayout
import proofs.«124586_j48335561949712_1_alg».proof.Proof.LibRowCol
import proofs.«124586_j48335561949712_1_alg».proof.Proof.LibMatProdT

noncomputable section

open scoped BigOperators

namespace RowStat

open Idealize.ShloMosaic Idealize.ShloMosaic.ValueIdx

theorem exp_apply {s : Shape} {φ : FTy} (x : FVec Ideal s φ) (i : s.Idx) : exp x i = Ideal.exp (x i) := rfl
theorem rsqrt_apply {s : Shape} {φ : FTy} (x : FVec Ideal s φ) (i : s.Idx) : rsqrt x i = Ideal.rsqrt (x i) := rfl

/-- The row maximum as a column, at `(p, u)`. -/
theorem max_col {a b : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (p : Fin a) (u : Fin 1) :
    shapeCast ⟨2, ![a, 1]⟩ (multiReduction .maximumf [1] ⟨1, ![a]⟩ z 0xFF800000#32 hred hφ hacc) hc (ix2 p u)
      = (Finset.univ : Finset (Fin b)).fold max (Ideal.ofBits .f32 0xFF800000#32) (fun k => z (ix2 p k)) :=
  (PushPull.Layout.cast_a_a1 _ hc p u).trans (MatProdT.max_ab_1 z 0xFF800000#32 hred hφ hacc p)

/-- The row sum as a column, at `(p, u)`. -/
theorem sum_col {a b : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction .add [1] ⟨1, ![a]⟩ z 0x00000000#32 hred hφ hacc) hc (ix2 p u)
      = ∑ k : Fin b, z (ix2 p k) :=
  (PushPull.Layout.cast_a_a1 _ hc p u).trans (PushPull.Layout.sum_ab_1 z 0x00000000#32 hred hφ hacc p)

/-- The row maximum stretched back over the row, at `(p, r)`. -/
theorem max_back {a b c : ℕ} (z : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .maximumf [1] ⟨1, ![a]⟩ z 0xFF800000#32 hred hφ hacc) hc) hb (ix2 p r)
      = (Finset.univ : Finset (Fin b)).fold max (Ideal.ofBits .f32 0xFF800000#32) (fun k => z (ix2 p k)) :=
  (RowCol.broadcastTo_a1_ab_apply _ hb p r).trans (max_col z hred hφ hacc hc p 0)

/-- The row sum stretched back over the row, at `(p, r)`. -/
theorem sum_back {a b c : ℕ} (z : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, c]⟩) (p : Fin a) (r : Fin c) :
    broadcastTo ⟨2, ![a, c]⟩ (shapeCast ⟨2, ![a, 1]⟩ (multiReduction .add [1] ⟨1, ![a]⟩ z 0x00000000#32 hred hφ hacc) hc) hb (ix2 p r)
      = ∑ k : Fin b, z (ix2 p k) :=
  (RowCol.broadcastTo_a1_ab_apply _ hb p r).trans (sum_col z hred hφ hacc hc p 0)

end RowStat

end
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.PayValue.lean ====
/-
  The arithmetic of one accumulation step of the density sum, read at an index, and the accumulator after the eight
  column tiles of a row tile.

  The reset value is the zero column.  One accumulation step adds to the old column, at row r, the sum over the tile's
  1024 rows k of exp (5 · Σ_d x0(r,d) · x1(k,d)).  Starting from the reset value at the first column tile and stepping
  through the eight column tiles of row tile I, the column holds at row r the density of row 1024·I + r.
-/
import proofs.«124586_j48335561949712_1_alg».proof.Proof.Gen.KernelIdeal.Skeleton
import proofs.«124586_j48335561949712_1_alg».proof.Proof.Spec
import proofs.«124586_j48335561949712_1_alg».proof.Proof.LibMatProdT
import proofs.«124586_j48335561949712_1_alg».proof.Proof.LibRowStat
import proofs.«124586_j48335561949712_1_alg».proof.Proof.LibTiles

noncomputable section

open scoped BigOperators

namespace Cert.Kde.Pay

open Cert.KernelIdeal Cert.KernelIdeal.Gen Idealize.ShloMosaic Idealize.ShloMosaic.ValueIdx

/-- The reset value is zero at every entry. -/
theorem pay1_apply (r : Fin 1024) (u : Fin 1) : k0_pay1 (F := Ideal) (ix2 r u) = 0 := by
  unfold k0_pay1
  rw [shapeCast_self]
  exact Ideal.ofBits_zero_f32

/-- The record of the tile product contracts one axis … -/
theorem dot_rank : (dot_S1024x768_S1024x768_S1024x1024_1_1_0_0_n_n).contr.rank = 1 := rfl
/-- … of 768 entries. -/
theorem dot_size : (dot_S1024x768_S1024x768_S1024x1024_1_1_0_0_n_n).contr.size ⟨0, by decide⟩ = 768 := rfl

theorem dot_l0 (j : S1024x1024.Idx) (c : (dot_S1024x768_S1024x768_S1024x1024_1_1_0_0_n_n).contr.Idx) :
    ((dot_S1024x768_S1024x768_S1024x1024_1_1_0_0_n_n).lhsIdx j c 0).val = (j 0).val := by
  unfold DotDims.lhsIdx
  rw [dif_neg (show ¬(0 : Fin S1024x768.rank) ∈ (dot_S1024x768_S1024x768_S1024x1024_1_1_0_0_n_n).lhsBatch by decide),
    dif_pos (show (0 : Fin S1024x768.rank) ∈ (dot_S1024x768_S1024x768_S1024x1024_1_1_0_0_n_n).lhsNonContracting by decide)]
  rfl
theorem dot_l1 (j : S1024x1024.Idx) (c : (dot_S1024x768_S1024x768_S1024x1024_1_1_0_0_n_n).contr.Idx) :
    ((dot_S1024x768_S1024x768_S1024x1024_1_1_0_0_n_n).lhsIdx j c 1).val = (c ⟨0, by decide⟩).val :=
  (dot_S1024x768_S1024x768_S1024x1024_1_1_0_0_n_n).lhsIdx_val_of_single rfl j c
theorem dot_r0 (j : S1024x1024.Idx) (c : (dot_S1024x768_S1024x768_S1024x1024_1_1_0_0_n_n).contr.Idx) :
    ((dot_S1024x768_S1024x768_S1024x1024_1_1_0_0_n_n).rhsIdx j c 0).val = (j 1).val := by
  unfold DotDims.rhsIdx
  rw [dif_neg (show ¬(0 : Fin S1024x768.rank) ∈ (dot_S1024x768_S1024x768_S1024x1024_1_1_0_0_n_n).rhsBatch by decide),
    dif_pos (show (0 : Fin S1024x768.rank) ∈ (dot_S1024x768_S1024x768_S1024x1024_1_1_0_0_n_n).rhsNonContracting by decide)]
  rfl
theorem dot_r1 (j : S1024x1024.Idx) (c : (dot_S1024x768_S1024x768_S1024x1024_1_1_0_0_n_n).contr.Idx) :
    ((dot_S1024x768_S1024x768_S1024x1024_1_1_0_0_n_n).rhsIdx j c 1).val = (c ⟨0, by decide⟩).val :=
  (dot_S1024x768_S1024x768_S1024x1024_1_1_0_0_n_n).rhsIdx_val_of_single rfl j c

/-- The tile product at (p, q): the inner product of row p of the left tile and row q of the right tile. -/
theorem tile_product (a b : FVec Ideal S1024x768 .bf16) (p q : Fin 1024) :
    FloatOps.matmul dot_S1024x768_S1024x768_S1024x1024_1_1_0_0_n_n none a b
        (constant (F := Ideal) S1024x1024 .f32 0x00000000#32) (ix2 p q)
      = ∑ d : Fin 768, a (ix2 p d) * b (ix2 q d) :=
  MatProdT.matmul_zero_entry_T dot_S1024x768_S1024x768_S1024x1024_1_1_0_0_n_n none dot_rank dot_size
    dot_l0 dot_l1 dot_r0 dot_r1 a b p q

/-- One accumulation step: the old value plus the row sum, over the tile's 1024 rows k, of exp (5 · ⟨row r of x0, row k of x1⟩). -/
theorem pay2_apply (x0 x1 : Vec Ideal S1024x768 .bf16) (xs : Vec Ideal S1024x1 .f32) (r : Fin 1024) (u : Fin 1) :
    k0_pay2 (F := Ideal) x0 x1 xs (ix2 r u)
      = xs (ix2 r u) + ∑ k : Fin 1024, Ideal.exp (Ideal.ofBits .f32 0x40A00000#32 * ∑ d : Fin 768, x0 (ix2 r d) * x1 (ix2 k d)) := by
  unfold k0_pay2
  refine (congrFun (shapeCast_self _ _) (ix2 r u)).trans ?_
  refine (addf_apply _ _ _).trans ?_
  refine congrArg (xs (ix2 r u) + ·) ?_
  refine (RowStat.sum_col _ _ _ _ _ r u).trans ?_
  refine Finset.sum_congr rfl fun k _ => ?_
  refine (RowStat.exp_apply _ _).trans ?_
  refine congrArg Ideal.exp ?_
  refine (mulf_apply _ _ _).trans ?_
  refine congrArg (Ideal.ofBits .f32 0x40A00000#32 * ·) ?_
  rw [shapeCast_self, shapeCast_self]
  exact tile_product x0 x1 r k

/-- After the eight column tiles of row tile I the column holds, at row r, the density of row 1024·I + r. -/
theorem acc_last (n : (⟨2, ![8192, 768]⟩ : Shape).Idx → EReal)
    (acc : ℕ → Vec Ideal S1024x1 .f32) (b0 b1 : ℕ → Vec Ideal S1024x768 .bf16)
    (h0 : ∀ t, (ht : t < 64) → ∀ (r : Fin 1024) (d : Fin 768), b0 t (ix2 r d) = n (ix2 ⟨1024 * (t / 8) + r.val, by omega⟩ d))
    (h1 : ∀ t, (ht : t < 64) → ∀ (r : Fin 1024) (d : Fin 768), b1 t (ix2 r d) = n (ix2 ⟨1024 * (t % 8) + r.val, by omega⟩ d))
    (hz : ∀ t, t < 64 → t % 8 = 0 → acc t = k0_pay2 (F := Ideal) (b0 t) (b1 t) (k0_pay1 (F := Ideal)))
    (hs : ∀ t, t < 64 → t % 8 ≠ 0 → acc t = k0_pay2 (F := Ideal) (b0 t) (b1 t) (acc (t - 1)))
    (I : Fin 8) (r : Fin 1024) (u : Fin 1) :
    acc (8 * I.val + 7) (ix2 r u) = Cert.Kde.dens n ⟨1024 * I.val + r.val, by omega⟩ := by
  have hI := I.isLt
  have hr := r.isLt
  have hb : 1024 * I.val + r.val < 8192 := by omega
  show acc (8 * I.val + 7) (ix2 r u) = Cert.Kde.dens n ⟨1024 * I.val + r.val, hb⟩
  generalize hR : (⟨1024 * I.val + r.val, hb⟩ : Fin 8192) = R
  have hRv : R.val = 1024 * I.val + r.val := (congrArg Fin.val hR).symm
  -- the kernel along row R, as a function of a natural column index
  obtain ⟨g, hg⟩ : ∃ g : ℕ → EReal, ∀ (m : ℕ) (h : m < 8192), g m = Cert.Kde.kern n R ⟨m, h⟩ :=
    ⟨fun m => if h : m < 8192 then Cert.Kde.kern n R ⟨m, h⟩ else 0, fun m h => dif_pos h⟩
  -- one step adds the sum of the kernel over column tile j
  have step : ∀ (j : ℕ) (hj : j < 8) (xs : Vec Ideal S1024x1 .f32),
      k0_pay2 (F := Ideal) (b0 (8 * I.val + j)) (b1 (8 * I.val + j)) xs (ix2 r u)
        = xs (ix2 r u) + ∑ k : Fin 1024, g (j * 1024 + k.val) := by
    intro j hj xs
    have ht : 8 * I.val + j < 64 := by omega
    rw [pay2_apply]
    refine congrArg (xs (ix2 r u) + ·) (Finset.sum_congr rfl fun k _ => ?_)
    have hk := k.isLt
    rw [hg (j * 1024 + k.val) (by omega)]
    unfold Cert.Kde.kern
    refine congrArg (fun s => Ideal.exp (Ideal.ofBits .f32 0x40A00000#32 * s)) (Finset.sum_congr rfl fun d _ => ?_)
    rw [h0 _ ht r d, h1 _ ht k d]
    have e0 : (⟨1024 * ((8 * I.val + j) / 8) + r.val, by omega⟩ : Fin 8192) = R := Fin.ext (by rw [hRv]; show 1024 * ((8 * I.val + j) / 8) + r.val = _; omega)
    have e1 : (⟨1024 * ((8 * I.val + j) % 8) + k.val, by omega⟩ : Fin 8192) = ⟨j * 1024 + k.val, by omega⟩ :=
      Fin.ext (by show 1024 * ((8 * I.val + j) % 8) + k.val = j * 1024 + k.val; omega)
    rw [e0, e1]
  -- the running total after column tile j
  have main : ∀ j, j < 8 → acc (8 * I.val + j) (ix2 r u) = ∑ J ∈ Finset.range (j + 1), ∑ k : Fin 1024, g (J * 1024 + k.val) := by
    intro j
    induction j with
    | zero =>
      intro _
      rw [hz (8 * I.val + 0) (by omega) (by omega), step 0 (by omega), pay1_apply, zero_add, Finset.sum_range_one]
    | succ j ih =>
      intro hj
      rw [hs (8 * I.val + (j + 1)) (by omega) (by omega), step (j + 1) hj]
      have e : 8 * I.val + (j + 1) - 1 = 8 * I.val + j := by omega
      rw [e, ih (by omega), Finset.sum_range_succ _ (j + 1)]
  rw [main 7 (by omega), Finset.sum_range (fun J => ∑ k : Fin 1024, g (J * 1024 + k.val)), Tiles.sum_tiles 8 1024 g]
  unfold Cert.Kde.dens
  show ∑ j : Fin 8192, g j.val = _
  exact Finset.sum_congr rfl fun k _ => hg k.val k.isLt

end Cert.Kde.Pay

end
-- ==== Proof.FrIValue2.lean ====
/-
  The output array of the density region, row by row.

  Point t = 8·I + j of the 8 × 8 grid reads row tile I of the array of rows through the first input window and row
  tile j of the same array through the second.  Along the eight column tiles of row tile I the accumulator starts from
  the reset value and gains each tile's contribution, so after j = 7 it holds, at row r, the density of row
  1024·I + r; the output block written back there is a copy of it.  The written-back blocks are the eight row tiles of
  the output column, so the output array ends holding the column of densities.
-/
import proofs.«124586_j48335561949712_1_alg».proof.Proof.FrIValue
import proofs.«124586_j48335561949712_1_alg».proof.Proof.PayValue
import Idealize.ShloMosaic.Lib.Pipeline.Value

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The grid has 64 points. -/
theorem N64 : cfg0.N = 64 := N_0

/-- The block index maps over the grid: the first input window and the output window follow the row tile t / 8, the second input window the column tile t % 8;
    no window moves along its second axis. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

theorem row_lt (t : Fin cfg0.N) (r : Fin 1024) : 1024 * (t.val / 8) + r.val < 8192 := by
  have := lt_of_lt_of_eq t.isLt N64; have := r.isLt; omega
theorem col_lt (t : Fin cfg0.N) (r : Fin 1024) : 1024 * (t.val % 8) + r.val < 8192 := by
  have := r.isLt; omega

/-- The first input block at point t is row tile t / 8 of the array. -/
theorem iblk0_apply (c : Dev nD) (t : Fin cfg0.N) (r : Fin 1024) (d : Fin 768) :
    iblk m c 0 t (ix2 r d) = V m c main_v5 (ix2 ⟨1024 * (t.val / 8) + r.val, row_lt t r⟩ d) := by
  unfold iblk
  rw [View.read_apply]
  show V m c main_v5 (((cfg0.win 0).blk t).view.emb (ix2 r d)) = V m c main_v5 _
  refine congrArg (V m c main_v5) (funext fun a => Fin.ext ?_)
  match a with
  | ⟨0, _⟩ => show win0_0.index t (0 : Fin 2) * 1024 + 1 * r.val = 1024 * (t.val / 8) + r.val; rw [(idx_facts t).1]; omega
  | ⟨1, _⟩ => show win0_0.index t (1 : Fin 2) * 768 + 1 * d.val = d.val; rw [(idx_facts t).2.1]; omega

/-- The second input block at point t is row tile t % 8 of the same array. -/
theorem iblk1_apply (c : Dev nD) (t : Fin cfg0.N) (r : Fin 1024) (d : Fin 768) :
    iblk m c 1 t (ix2 r d) = V m c main_v5 (ix2 ⟨1024 * (t.val % 8) + r.val, col_lt t r⟩ d) := by
  unfold iblk
  rw [View.read_apply]
  show V m c main_v5 (((cfg0.win 1).blk t).view.emb (ix2 r d)) = V m c main_v5 _
  refine congrArg (V m c main_v5) (funext fun a => Fin.ext ?_)
  match a with
  | ⟨0, _⟩ => show win0_1.index t (0 : Fin 2) * 1024 + 1 * r.val = 1024 * (t.val % 8) + r.val; rw [(idx_facts t).2.2.1]; omega
  | ⟨1, _⟩ => show win0_1.index t (1 : Fin 2) * 768 + 1 * d.val = d.val; rw [(idx_facts t).2.2.2.1]; omega

/-! ## The accumulator along the grid, at the extended reals -/

section AtIdeal
variable (mi : (ℓ : Loc nD τ sig) → Buf (Elt Ideal) ℓ) (c : Dev nD)

/-- The accumulator after point t (zero beyond the grid). -/
def accAt : ℕ → Vec Ideal S1024x1 .f32 := fun t => if h : t < cfg0.N then (outsAt (F := Ideal) mi c t h).2 else fun _ => 0
/-- The first input block at point t (zero beyond the grid). -/
def blk0At : ℕ → Vec Ideal S1024x768 .bf16 := fun t => if h : t < cfg0.N then iblk (F := Ideal) mi c 0 ⟨t, h⟩ else fun _ => 0
/-- The second input block at point t (zero beyond the grid). -/
def blk1At : ℕ → Vec Ideal S1024x768 .bf16 := fun t => if h : t < cfg0.N then iblk (F := Ideal) mi c 1 ⟨t, h⟩ else fun _ => 0

theorem accAt_of_lt (t : ℕ) (h : t < cfg0.N) : accAt mi c t = (outsAt (F := Ideal) mi c t h).2 := dif_pos h
theorem blk0At_of_lt (t : ℕ) (h : t < cfg0.N) : blk0At mi c t = iblk (F := Ideal) mi c 0 ⟨t, h⟩ := dif_pos h
theorem blk1At_of_lt (t : ℕ) (h : t < cfg0.N) : blk1At mi c t = iblk (F := Ideal) mi c 1 ⟨t, h⟩ := dif_pos h

/-- At a first column tile the accumulator is the reset value plus the tile's contribution. -/
theorem accAt_first (t : ℕ) (ht : t < 64) (h0 : t % 8 = 0) :
    accAt mi c t = k0_pay2 (F := Ideal) (blk0At mi c t) (blk1At mi c t) (k0_pay1 (F := Ideal)) := by
  have hN : t < cfg0.N := lt_of_lt_of_eq ht N64.symm
  have h1 : ¬t % 8 = 7 := by omega
  rw [accAt_of_lt mi c t hN, blk0At_of_lt mi c t hN, blk1At_of_lt mi c t hN]
  rw [outsAt_first mi c ⟨t, hN⟩ h0 h1]
  dsimp only
  exact soutFirst_eq (F := Ideal) c (grid0.coords ⟨t, hN⟩) (ms0 ⟨t, hN⟩) (hs0 ⟨t, hN⟩) (ms1 ⟨t, hN⟩) (hs1 ⟨t, hN⟩) (ms2 ⟨t, hN⟩) (hs2 ⟨t, hN⟩) scM (Memref.isWhole_whole _) ((hcondFirst ⟨t, hN⟩).mpr h0) (fun h => h1 ((hcondLast ⟨t, hN⟩).mp h)) (iblk mi c 0 ⟨t, hN⟩) (iblk mi c 1 ⟨t, hN⟩)

/-- At any other column tile it is the accumulator of the point before plus the tile's contribution. -/
theorem accAt_step (t : ℕ) (ht : t < 64) (h0 : t % 8 ≠ 0) :
    accAt mi c t = k0_pay2 (F := Ideal) (blk0At mi c t) (blk1At mi c t) (accAt mi c (t - 1)) := by
  have hN : t < cfg0.N := lt_of_lt_of_eq ht N64.symm
  have hN' : t - 1 < cfg0.N := Nat.lt_of_le_of_lt (Nat.sub_le _ _) hN
  rw [accAt_of_lt mi c t hN, blk0At_of_lt mi c t hN, blk1At_of_lt mi c t hN, accAt_of_lt mi c (t - 1) hN']
  by_cases h1 : t % 8 = 7
  · rw [outsAt_last mi c ⟨t, hN⟩ h0 h1]
    dsimp only
    exact soutLast_eq (F := Ideal) c (grid0.coords ⟨t, hN⟩) (ms0 ⟨t, hN⟩) (hs0 ⟨t, hN⟩) (ms1 ⟨t, hN⟩) (hs1 ⟨t, hN⟩) (ms2 ⟨t, hN⟩) (hs2 ⟨t, hN⟩) scM (Memref.isWhole_whole _) (fun h => h0 ((hcondFirst ⟨t, hN⟩).mp h)) ((hcondLast ⟨t, hN⟩).mpr h1) (iblk mi c 0 ⟨t, hN⟩) (iblk mi c 1 ⟨t, hN⟩) (outsAt mi c (t - 1) hN').2
  · rw [outsAt_mid mi c ⟨t, hN⟩ h0 h1]
    dsimp only
    exact soutMid_eq (F := Ideal) c (grid0.coords ⟨t, hN⟩) (ms0 ⟨t, hN⟩) (hs0 ⟨t, hN⟩) (ms1 ⟨t, hN⟩) (hs1 ⟨t, hN⟩) (ms2 ⟨t, hN⟩) (hs2 ⟨t, hN⟩) scM (Memref.isWhole_whole _) (fun h => h0 ((hcondFirst ⟨t, hN⟩).mp h)) (fun h => h1 ((hcondLast ⟨t, hN⟩).mp h)) (iblk mi c 0 ⟨t, hN⟩) (iblk mi c 1 ⟨t, hN⟩) (outsAt mi c (t - 1) hN').2

/-- The array both input windows read, as a function of its indices. -/
abbrev rowsOf : (⟨2, ![8192, 768]⟩ : Shape).Idx → EReal := V (F := Ideal) mi c main_v5

/-- After the last column tile of row tile I the accumulator holds, at row r, the density of row 1024·I + r. -/
theorem accAt_last (I : Fin 8) (r : Fin 1024) (u : Fin 1) :
    accAt mi c (8 * I.val + 7) (ix2 r u) = Cert.Kde.dens (rowsOf mi c) ⟨1024 * I.val + r.val, by omega⟩ :=
  Cert.Kde.Pay.acc_last (rowsOf mi c) (accAt mi c) (blk0At mi c) (blk1At mi c)
    (fun t ht r d => by
      have hN : t < cfg0.N := lt_of_lt_of_eq ht N64.symm
      rw [blk0At_of_lt mi c t hN]; exact iblk0_apply (F := Ideal) mi c ⟨t, hN⟩ r d)
    (fun t ht r d => by
      have hN : t < cfg0.N := lt_of_lt_of_eq ht N64.symm
      rw [blk1At_of_lt mi c t hN]; exact iblk1_apply (F := Ideal) mi c ⟨t, hN⟩ r d)
    (accAt_first mi c) (accAt_step mi c) I r u

theorem last_lt (I : Fin 8) : 8 * I.val + 7 < cfg0.N := by rw [N64]; omega

/-- The same, for the pair the body leaves at the last column tile: the accumulator … -/
theorem outsAt_last_snd (I : Fin 8) (r : Fin 1024) (u : Fin 1) :
    (outsAt (F := Ideal) mi c (8 * I.val + 7) (last_lt I)).2 (ix2 r u) = Cert.Kde.dens (rowsOf mi c) ⟨1024 * I.val + r.val, by omega⟩ := by
  rw [← accAt_of_lt mi c _ (last_lt I)]; exact accAt_last mi c I r u

/-- … and the output block, which is a copy of it. -/
theorem outsAt_last_fst (I : Fin 8) (r : Fin 1024) (u : Fin 1) :
    (outsAt (F := Ideal) mi c (8 * I.val + 7) (last_lt I)).1 (ix2 r u) = Cert.Kde.dens (rowsOf mi c) ⟨1024 * I.val + r.val, by omega⟩ := by
  have hN := last_lt I
  have h0 : ¬(8 * I.val + 7) % 8 = 0 := by omega
  have h1 : (8 * I.val + 7) % 8 = 7 := by omega
  have e : (outsAt (F := Ideal) mi c (8 * I.val + 7) hN).1 = (outsAt (F := Ideal) mi c (8 * I.val + 7) hN).2 := by
    rw [outsAt_last mi c ⟨8 * I.val + 7, hN⟩ h0 h1]
    dsimp only
    exact (outLast_eq (F := Ideal) c _ _ _ _ _ _ _ _ _ _ _ _ _ _).trans (soutLast_eq (F := Ideal) c _ _ _ _ _ _ _ _ _ _ _ _ _ _).symm
  rw [e]; exact outsAt_last_snd mi c I r u

end AtIdeal

/-! ## The output array after the region -/

section Final
variable (mi : (ℓ : Loc nD τ sig) → Buf (Elt Ideal) ℓ) (c : Dev nD)

/-- At any last column tile the output block holds, at row r, the density of row 1024·(t / 8) + r. -/
theorem outsAt_fst_at (t : ℕ) (ht : t < cfg0.N) (h7 : t % 8 = 7) (r : Fin 1024) (u : Fin 1) :
    (outsAt (F := Ideal) mi c t ht).1 (ix2 r u)
      = Cert.Kde.dens (rowsOf mi c) ⟨1024 * (t / 8) + r.val, row_lt ⟨t, ht⟩ r⟩ := by
  have hN := lt_of_lt_of_eq ht N64
  obtain ⟨I, rfl⟩ : ∃ I : Fin 8, t = 8 * I.val + 7 := ⟨⟨t / 8, by omega⟩, by show t = 8 * (t / 8) + 7; omega⟩
  refine (outsAt_last_fst mi c I r u).trans (congrArg (Cert.Kde.dens (rowsOf mi c)) (Fin.ext ?_))
  show 1024 * I.val + r.val = 1024 * ((8 * I.val + 7) / 8) + r.val
  omega

/-- What a writing-back point writes is its block of the column of densities. -/
theorem flushed_eq (t : Fin cfg0.N) (hf : (cfg0.win 2).flush t = true) :
    (dats (F := Ideal) mi 0 c).flushed 2 t
      = ((cfg0.win 2).blk t).view.read (Elt Ideal) (Cert.Kde.densCol (rowsOf mi c)) := by
  have h7 : t.val % 8 = 7 := (flush0_2 t).mp hf
  show (cfg0.win 2).cut (grid0.coords t) ((dats (F := Ideal) mi 0 c).after 2 t) = _
  rw [after2]
  funext j
  obtain ⟨r, u, rfl⟩ : ∃ (r : Fin 1024) (u : Fin 1), j = ix2 r u := ⟨j 0, j 1, eq_ix2 j⟩
  rw [View.read_apply]
  show (outsAt (F := Ideal) mi c t.val t.isLt).1 (ix2 r u)
    = Cert.Kde.dens (rowsOf mi c) ((((cfg0.win 2).blk t).view.emb (ix2 r u)) 0)
  rw [outsAt_fst_at mi c t.val t.isLt h7 r u]
  refine congrArg (Cert.Kde.dens (rowsOf mi c)) (Fin.ext ?_)
  show 1024 * (t.val / 8) + r.val = win0_2.index t (0 : Fin 2) * 1024 + 1 * r.val
  rw [(idx_facts t).2.2.2.2.1]; omega

/-- Every row of the output array is in the block of the last column tile of its row tile. -/
theorem cover (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  have hb : 8 * ((i 0).val / 1024) + 7 < cfg0.N := by rw [N64]; omega
  obtain ⟨t, ht⟩ : ∃ t : Fin cfg0.N, t.val = 8 * ((i 0).val / 1024) + 7 := ⟨⟨_, hb⟩, rfl⟩
  refine ⟨t, (flush0_2 t).mpr (by rw [ht]; omega), ?_⟩
  show i ∈ ((View.whole main_v6).slice (win0_2.rect t)).set
  rw [View.set_slice_whole, Rect.mem_set_unit]
  obtain ⟨-, -, -, -, e0, e1⟩ := idx_facts t
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 1 ≤ (i 1).val ∧ (i 1).val < win0_2.index t (1 : Fin 2) * 1 + 1
    rw [e1]; omega

/-- The output array after the region is, row by row, the density. -/
theorem out_final : (dats (F := Ideal) mi 0 c).arrAt 2 cfg0.N = Cert.Kde.densCol (rowsOf mi c) :=
  (dats (F := Ideal) mi 0 c).arrAt_eq_of_cover 2 (Cert.Kde.densCol (rowsOf mi c)) (flushed_eq mi c) (cover)

end Final

end Cert.KernelIdeal.Fr

end
-- ==== Proof.RefValue.lean ====
/-
  The reference's result, read index by index.

  After normalising the rows (nrm) the reference forms the 8192 x 8192 array of inner products of rows r and k as one
  product of n with its transpose, multiplies by the word for 5, exponentiates, and sums each row from the zero word: at
  row r this is Σ_k exp (5 · Σ_d n(r,d) · n(k,d)), the density of row r.  The remaining operations are the common tail.
  So the reference's result is tail (densVec (nrm x)).
-/
import proofs.«124586_j48335561949712_1_alg».proof.Defs
import proofs.«124586_j48335561949712_1_alg».proof.Proof.Gen.ReferenceIdeal.Read
import proofs.«124586_j48335561949712_1_alg».proof.Proof.Gen.Pre_finite_inputs
import proofs.«124586_j48335561949712_1_alg».proof.Proof.Spec
import proofs.«124586_j48335561949712_1_alg».proof.Proof.RefParts

noncomputable section

open scoped BigOperators

namespace Cert.Kde.Ref

open Cert.ReferenceIdeal Cert.ReferenceIdeal.Gen Idealize.ShloMosaic Idealize.ShloMosaic.ValueIdx
  Idealize.ShloMosaic.TcCoe Idealize.SL.Sem

/-! ## The non-pointwise operations of the middle, each read at an index -/

/-- The transposed array at (d, k) is the array at (k, d). -/
theorem transpose_at (n : FVec Ideal S8192x768 .f32) (d : Fin 768) (k : Fin 8192) :
    transpose S768x8192 [1, 0] n transposes_S8192x768_S768x8192_1_0 (ix2 d k) = n (ix2 k d) :=
  transpose_apply [1, 0] n transposes_S8192x768_S768x8192_1_0 (ix2 d k) (ix2 k d) (fun b => match b with
    | ⟨0, _⟩ => rfl
    | ⟨1, _⟩ => rfl)

/-- The product of a 8192 x 768 array with a 768 x 8192 array at (r, k) is Σ_d l(r,d) · t(d,k). -/
theorem product_at (l : FVec Ideal S8192x768 .f32) (t : FVec Ideal S768x8192 .f32) (r k : Fin 8192) :
    Host.dotGeneral (F := Ideal) dot_S8192x768_S768x8192_S8192x8192_1_0_0_1_n_n none l t (ix2 r k) = ∑ d : Fin 768, l (ix2 r d) * t (ix2 d k) := by
  simp only [Host.dotGeneral]
  rw [Ideal.dotGeneral_apply, ← Equiv.sum_comp (ValueIdx.contrEquiv1 dot_S8192x768_S768x8192_S8192x8192_1_0_0_1_n_n 768 rfl rfl).symm]
  refine Finset.sum_congr rfl fun d _ => ?_
  have hd := ValueIdx.contrEquiv1_symm_val dot_S8192x768_S768x8192_S8192x8192_1_0_0_1_n_n 768 rfl rfl d
  have el : dot_S8192x768_S768x8192_S8192x8192_1_0_0_1_n_n.lhsIdx (ix2 r k) ((ValueIdx.contrEquiv1 dot_S8192x768_S768x8192_S8192x8192_1_0_0_1_n_n 768 rfl rfl).symm d) = ix2 r d :=
    funext fun a => Fin.ext (by
      match a with
      | ⟨0, _⟩ => exact Read.lhs_main_v6_0 _ _
      | ⟨1, _⟩ => exact (Read.lhs_main_v6_1 _ _).trans hd)
  have er : dot_S8192x768_S768x8192_S8192x8192_1_0_0_1_n_n.rhsIdx (ix2 r k) ((ValueIdx.contrEquiv1 dot_S8192x768_S768x8192_S8192x8192_1_0_0_1_n_n 768 rfl rfl).symm d) = ix2 d k :=
    funext fun a => Fin.ext (by
      match a with
      | ⟨0, _⟩ => exact (Read.rhs_main_v6_0 _ _).trans hd
      | ⟨1, _⟩ => exact Read.rhs_main_v6_1 _ _)
  rw [el, er]

/-- The sum of a 8192 x 8192 array along its rows, from the zero word, at r is Σ_k y(r,k). -/
theorem rowSum_at (y : FVec Ideal S8192x8192 .f32) (r : Fin 8192) :
    Host.reduceAdd (F := Ideal) y (constant (F := Ideal) S_ .f32 0x00000000#32) reducesTo_S8192x8192_S8192_d1 h_S_ (ix1 r)
      = ∑ k : Fin 8192, y (ix2 r k) := by
  simp only [Host.reduceAdd, Ideal.hostReduceAdd_def]
  rw [Ideal.hostReduceAdd_single reducesTo_S8192x8192_S8192_d1 (by decide)]
  refine Eq.trans (congrArg (· + _) (?_ : _ = (0 : EReal))) ((zero_add _).trans (Finset.sum_congr rfl fun k _ => ?_))
  · exact Ideal.ofBits_zero_f32
  · exact congrArg y (funext fun a => Fin.ext (by match a with | ⟨0, _⟩ => rfl | ⟨1, _⟩ => rfl))

/-- A scalar broadcast over the 8192 x 8192 array reads the scalar everywhere. -/
theorem splat_at (s : FVec Ideal S_ .f32) (i : S8192x8192.Idx) :
    broadcastInDim S8192x8192 ![] bcast_S_S8192x8192 s i = s ix0 :=
  broadcastInDim_apply _ bcast_S_S8192x8192 s i ix0 (fun a => a.elim0)

/-! ## The middle is the vector of densities -/

/-- Row sums of exp (5 · n nᵀ), from the zero word, are the densities of n. -/
theorem dens_eq (n : FVec Ideal S8192x768 .f32) :
    Host.reduceAdd (F := Ideal)
      (Host.exp (F := Ideal)
        (mulf (broadcastInDim S8192x8192 ![] bcast_S_S8192x8192 (constant (F := Ideal) S_ .f32 0x40A00000#32))
          (Host.dotGeneral (F := Ideal) dot_S8192x768_S768x8192_S8192x8192_1_0_0_1_n_n none n
            (transpose S768x8192 [1, 0] n transposes_S8192x768_S768x8192_1_0))))
      (constant (F := Ideal) S_ .f32 0x00000000#32) reducesTo_S8192x8192_S8192_d1 h_S_
    = Cert.Kde.densVec n := by
  funext i
  obtain ⟨r, rfl⟩ : ∃ r : Fin 8192, i = ix1 r := ⟨i 0, eq_ix1 i⟩
  rw [rowSum_at, Cert.Kde.densVec_ix1]
  unfold Cert.Kde.dens Cert.Kde.kern
  refine Finset.sum_congr rfl fun k _ => ?_
  show Ideal.exp (broadcastInDim S8192x8192 ![] bcast_S_S8192x8192 (constant (F := Ideal) S_ .f32 0x40A00000#32) (ix2 r k)
      * Host.dotGeneral (F := Ideal) dot_S8192x768_S768x8192_S8192x8192_1_0_0_1_n_n none n
          (transpose S768x8192 [1, 0] n transposes_S8192x768_S768x8192_1_0) (ix2 r k)) = _
  rw [splat_at, product_at]
  refine congrArg (fun z => Ideal.exp (_ * z)) (Finset.sum_congr rfl fun d _ => ?_)
  rw [transpose_at]

/-! ## The whole result -/

/-- The run's term for the result is the tail of the densities of the normalised rows. -/
theorem result_eq (x : FVec Ideal S8192x768 .f32) :
    Read.val_main_v16 (F := Ideal) x = tail (Cert.Kde.densVec (nrm x)) := by
  rw [← dens_eq]
  rfl

/-- From any memory, every fair execution of the reference ends with its result at the tail of the densities of the
    normalised rows of its argument, and the argument unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread Cert.ReferenceIdeal.nD Cert.ReferenceIdeal.τ).loc Cert.ReferenceIdeal.main_v16)
          = tail (Cert.Kde.densVec (nrm (m ((c.tc : Thread Cert.ReferenceIdeal.nD Cert.ReferenceIdeal.τ).loc Cert.ReferenceIdeal.main_arg0))))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run Cert.ReferenceIdeal.defs _ _).mono
    (fun _ h c => ⟨(h c).1.trans ((Read.val_main_v16_eq (F := Ideal) _).trans (result_eq _)), (h c).2⟩)
    (Cert.ReferenceIdeal.Value.run (F := Ideal) m ρ)

/-- The reference runs and leaves its argument unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Kde.Ref

end
-- ==== Proof.lean ====
/-
  The certificate's claims, assembled.

  Both programs compute minus the mean of log (dens + 1e-9) over the 8192 rows of the normalised input, where
  dens r = Σ_k exp (5 · ⟨row r, row k⟩).  The reference takes the 8192 × 8192 product whole; the kernel accumulates,
  for each tile of 1024 rows, the contributions of the eight tiles of 1024 columns.  On the extended reals a sum
  does not depend on how it is grouped, and a change of float format is the identity, so the two results are equal
  entry by entry; no finiteness of the input is needed.

  The three frames: each program runs to the end, faults nowhere and leaves its argument array as it found it — no
  host operation writes the argument and the kernel region writes only its own output array.
-/
import proofs.«124586_j48335561949712_1_alg».proof.Defs
import proofs.«124586_j48335561949712_1_alg».proof.Proof.Gen.Kernel
import proofs.«124586_j48335561949712_1_alg».proof.Proof.Gen.KernelIdeal
import proofs.«124586_j48335561949712_1_alg».proof.Proof.Gen.ReferenceIdeal
import proofs.«124586_j48335561949712_1_alg».proof.Proof.Gen.Pre_finite_inputs
import proofs.«124586_j48335561949712_1_alg».proof.Proof.FrIRun
import proofs.«124586_j48335561949712_1_alg».proof.Proof.FrKRun
import proofs.«124586_j48335561949712_1_alg».proof.Proof.FrIArg
import proofs.«124586_j48335561949712_1_alg».proof.Proof.FrKArg
import proofs.«124586_j48335561949712_1_alg».proof.Proof.FrIBridge
import proofs.«124586_j48335561949712_1_alg».proof.Proof.FrIValue2
import proofs.«124586_j48335561949712_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_k : Cert.frame_Kernel := fun m ρ _ =>
  (θ_run Cert.Kernel.defs _ _).mono
    (fun _ h c => (h c Cert.Kernel.main_arg0 rfl).trans (Cert.Kernel.Fr.end_arg0 m c))
    (Cert.Kernel.Fr.run_main (F := Bits) m ρ)

/-- The idealized kernel program runs and leaves its argument unchanged. -/
theorem frame_ki : Cert.frame_KernelIdeal := fun m ρ _ =>
  (θ_run Cert.KernelIdeal.defs _ _).mono
    (fun _ h c => (h c Cert.KernelIdeal.main_arg0 rfl).trans (Cert.KernelIdeal.Fr.end_arg0 m c))
    (Cert.KernelIdeal.Fr.run_main (F := Ideal) m ρ)

/-- The ideal pass rewrote nothing. -/
theorem preserves : Cert.preserves_Kernel_KernelIdeal := trivial

/-- Both idealized programs end with minus the mean of log (dens + 1e-9) of the normalised argument. -/
theorem algebraic : Cert.algebraic_KernelIdeal_ReferenceIdeal := by
  intro m ρ m' ρ' _ hagree
  refine ⟨fun c => Cert.Kde.Ref.tail (Cert.Kde.densVec (Cert.Kde.Ref.nrm
    (m ((c.tc : Thread Cert.KernelIdeal.nD Cert.KernelIdeal.τ).loc Cert.KernelIdeal.main_arg0)))), ?_, ?_⟩
  · refine (θ_run Cert.KernelIdeal.defs _ _).mono (fun _ h c => ⟨?_, ?_⟩) (Cert.KernelIdeal.Fr.run_main (F := Ideal) m ρ)
    · refine (h c Cert.KernelIdeal.main_v13 rfl).trans ?_
      have e := Cert.KernelIdeal.Fr.end_v13 m c _ (Cert.KernelIdeal.Fr.out_final m c)
      exact e.trans (congrArg (fun n => Cert.Kde.Ref.tail (Cert.Kde.densVec n)) (Cert.KernelIdeal.Fr.entry_v5 m c))
    · exact (h c Cert.KernelIdeal.main_arg0 rfl).trans (Cert.KernelIdeal.Fr.end_arg0 m c)
  · refine (θ_run Cert.ReferenceIdeal.defs _ _).mono (fun _ h c => ⟨?_, (h c).2⟩) (Cert.Kde.Ref.run m' ρ')
    rw [(h c).1, hagree c]

theorem claim : Cert.Claim := ⟨Cert.Kernel.Gen.facts, Cert.KernelIdeal.Gen.facts, Cert.ReferenceIdeal.Gen.facts, Cert.Pre_finite_inputs.Gen.facts,
  frame_k, frame_ki, Cert.Kde.Ref.frame_ri, preserves, algebraic⟩

end Cert.Proof

end
